-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x128 : Shape := ⟨2, ![100000, 128]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x1 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S128 .f32) (main_arg6 : FVec F S128x1 .f32) (main_arg7 : FVec F S1 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : IVec S2x3200000 32) (main_arg1 : FVec F S100000x128 .f32) (main_arg2 : FVec F S3200000x3 .f32) (main_arg3 : FVec F S3200000x3 .f32) (main_arg4 : FVec F S128x128 .f32) (main_arg5 : FVec F S128 .f32) (main_arg6 : FVec F S128x1 .f32) (main_arg7 : FVec F S1 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x3 .f32 := Host.absf main_arg2
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S3200000x3 .f32 := Host.absf main_arg3
  let main_cst_2 : FVec F S_ .f32 := constant S_ .f32 0x7F800000#32
  let main_v10 : FVec F S3200000x3 .f32 := broadcastInDim S3200000x3 ![] bcast_S_S3200000x3 main_cst_2
  let main_v11 : IVec S3200000x3 1 := cmpf .olt main_v9 main_v10
  let main_c_3 : IVec S_ 1 := constantI S_ 1 1#1
  let main_v12 : IVec S_ 1 := (fun x v => Host.reduce IntOp.andi x v reducesTo_S3200000x3_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S2x3200000 : Shape := ⟨2, ![2, 3200000]⟩
abbrev S100000x128 : Shape := ⟨2, ![100000, 128]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x3200000 : Shape := ⟨2, ![1, 3200000]⟩
abbrev S3200000 : Shape := ⟨1, ![3200000]⟩
abbrev S3200000x6 : Shape := ⟨2, ![3200000, 6]⟩
abbrev S_ : Shape := ⟨0, ![]⟩
abbrev S100000x6 : Shape := ⟨2, ![100000, 6]⟩
abbrev S3200000x1 : Shape := ⟨2, ![3200000, 1]⟩
abbrev S128x384 : Shape := ⟨2, ![128, 384]⟩
abbrev S384 : Shape := ⟨1, ![384]⟩
abbrev S1x384 : Shape := ⟨2, ![1, 384]⟩
abbrev S384x1 : Shape := ⟨2, ![384, 1]⟩
abbrev S384x3 : Shape := ⟨2, ![384, 3]⟩
abbrev S3 : Shape := ⟨1, ![3]⟩
abbrev S1x3 : Shape := ⟨2, ![1, 3]⟩
abbrev S4000x128 : Shape := ⟨2, ![4000, 128]⟩
abbrev S4000x6 : Shape := ⟨2, ![4000, 6]⟩
abbrev S4000x384 : Shape := ⟨2, ![4000, 384]⟩
abbrev S4000x3 : Shape := ⟨2, ![4000, 3]⟩
abbrev S4000x1 : Shape := ⟨2, ![4000, 1]⟩
abbrev S100000x3 : Shape := ⟨2, ![100000, 3]⟩

abbrev nBuf : Space → Nat
  | .hbm => 37
  | .vmem => 10
  | .smem => 0
  | _ => 0

abbrev bufTy : (tb : Table) → Fin (tcTables nBuf tb) → BufTy
  | .hbm, ⟨0, _⟩ => ⟨S2x3200000, .i32⟩
  | .hbm, ⟨1, _⟩ => ⟨S100000x128, .f32⟩
  | .hbm, ⟨2, _⟩ => ⟨S3200000x3, .f32⟩
  | .hbm, ⟨3, _⟩ => ⟨S3200000x3, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x3200000, .i32⟩
  | .hbm, ⟨17, _⟩ => ⟨S3200000, .i32⟩
  | .hbm, ⟨18, _⟩ => ⟨S3200000x6, .f32⟩
  | .hbm, ⟨19, _⟩ => ⟨S_, .f32⟩
  | .hbm, ⟨20, _⟩ => ⟨S100000x6, .f32⟩
  | .hbm, ⟨21, _⟩ => ⟨S3200000x1, .i32⟩
  | .hbm, ⟨22, _⟩ => ⟨S100000x6, .f32⟩
  | .hbm, ⟨23, _⟩ => ⟨S128x384, .f32⟩
  | .hbm, ⟨24, _⟩ => ⟨S384, .f32⟩
  | .hbm, ⟨25, _⟩ => ⟨S1x384, .f32⟩
  | .hbm, ⟨26, _⟩ => ⟨S_, .f32⟩
  | .hbm, ⟨27, _⟩ => ⟨S128x1, .f32⟩
  | .hbm, ⟨28, _⟩ => ⟨S384x1, .f32⟩
  | .hbm, ⟨29, _⟩ => ⟨S384x1, .f32⟩
  | .hbm, ⟨30, _⟩ => ⟨S384x1, .f32⟩
  | .hbm, ⟨31, _⟩ => ⟨S384x3, .f32⟩
  | .hbm, ⟨32, _⟩ => ⟨S3, .f32⟩
  | .hbm, ⟨33, _⟩ => ⟨S1x3, .f32⟩
  | .hbm, ⟨34, _⟩ => ⟨S100000x6, .f32⟩
  | .hbm, ⟨35, _⟩ => ⟨S100000x3, .f32⟩
  | .hbm, ⟨36, _⟩ => ⟨S100000x3, .f32⟩
  | .local _ .vmem, ⟨0, _⟩ => ⟨S4000x128, .f32⟩
  | .local _ .vmem, ⟨1, _⟩ => ⟨S4000x128, .f32⟩
  | .local _ .vmem, ⟨2, _⟩ => ⟨S128x384, .f32⟩
  | .local _ .vmem, ⟨3, _⟩ => ⟨S1x384, .f32⟩
  | .local _ .vmem, ⟨4, _⟩ => ⟨S384x3, .f32⟩
  | .local _ .vmem, ⟨5, _⟩ => ⟨S1x3, .f32⟩
  | .local _ .vmem, ⟨6, _⟩ => ⟨S4000x6, .f32⟩
  | .local _ .vmem, ⟨7, _⟩ => ⟨S4000x6, .f32⟩
  | .local _ .vmem, ⟨8, _⟩ => ⟨S4000x6, .f32⟩
  | .local _ .vmem, ⟨9, _⟩ => ⟨S4000x6, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x6 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x3200000_S1x3200000_1_0 : S2x3200000.Slices ![1, 0] S1x3200000
  shapeCasts_S1x3200000_S3200000 : S1x3200000.ShapeCasts S3200000
  concatenates_S3200000x3_S3200000x3_S3200000x6_d1 : Shape.Concatenates [S3200000x3, S3200000x3] S3200000x6 1
  bcast_S_S100000x6 : S_.BroadcastsInDim S100000x6 (![] : Fin 0 → Fin S100000x6.rank)
  bcast_S3200000_S3200000x1_0 : S3200000.BroadcastsInDim S3200000x1 (![0] : Fin 1 → Fin S3200000x1.rank)
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  bcast_S_S128x1 : S_.BroadcastsInDim S128x1 (![] : Fin 0 → Fin S128x1.rank)
  concatenates_S128x1_S128x1_S128x1_S384x1_d0 : Shape.Concatenates [S128x1, S128x1, S128x1] S384x1 0
  concatenates_S384x1_S384x1_S384x1_S384x3_d1 : Shape.Concatenates [S384x1, S384x1, S384x1] S384x3 1
  concatenates_S1_S1_S1_S3_d0 : Shape.Concatenates [S1, S1, S1] S3 0
  shapeCasts_S3_S1x3 : S3.ShapeCasts S1x3
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4000x384 : S1x384.Broadcasts S4000x384
  inb_S384x3_S384x3_0_0 : ∀ a, (![0, 0] : Fin 2 → Nat) a + S384x3.size a ≤ S384x3.size a
  h_S384x3 : 0 < S384x3.numel
  shapeCasts_S384x3_S384x3 : S384x3.ShapeCasts S384x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  slices_S4000x3_o0_0_S4000x1 : S4000x3.Slices ![0, 0] S4000x1
  slices_S4000x3_o0_1_S4000x1 : S4000x3.Slices ![0, 1] S4000x1
  slices_S4000x3_o0_2_S4000x1 : S4000x3.Slices ![0, 2] S4000x1
  inb_S4000x6_S4000x6_0_0 : ∀ a, (![0, 0] : Fin 2 → Nat) a + S4000x6.size a ≤ S4000x6.size a
  h_S4000x6 : 0 < S4000x6.numel
  shapeCasts_S4000x6_S4000x6 : S4000x6.ShapeCasts S4000x6
  slices_S4000x6_o0_0_S4000x3 : S4000x6.Slices ![0, 0] S4000x3
  slices_S4000x6_o0_3_S4000x3 : S4000x6.Slices ![0, 3] S4000x3
  broadcasts_S4000x1_S4000x3 : S4000x1.Broadcasts S4000x3
  concatenates_S4000x3_S4000x3_S4000x6_d1 : Shape.Concatenates [S4000x3, S4000x3] S4000x6 1
  slices_S100000x6_S100000x3_0_0 : S100000x6.Slices ![0, 0] S100000x3
  slices_S100000x6_S100000x3_0_3 : S100000x6.Slices ![0, 3] S100000x3
  scatter_S100000x6_S3200000x1_S3200000x6_1_0_0_1_wf : ScatterDims.WF S100000x6 S3200000x1 S3200000x6 [1] [0] [0] 1
  dot_S4000x128_S128x384_S4000x384_1_0_0_1_n_n_wf : DotDims.WF S4000x128 S128x384 S4000x384 [1] [0] [0] [1] [] []
  dot_S4000x384_S384x3_S4000x3_1_0_0_1_n_n_wf : DotDims.WF S4000x384 S384x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x3.size a ≤ S384x3.size a
  hwx0_3 : ∀ i : grid0.Coords, EltTy.bits .f32 = 32 ∨ (Rect.block (s := S384x3) S384x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x6.size a ≤ S100000x6.size a
  hwx0_5 : ∀ i : grid0.Coords, EltTy.bits .f32 = 32 ∨ (Rect.block (s := S100000x6) S4000x6.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x6.size a ≤ S100000x6.size a
  hwx0_6 : ∀ i : grid0.Coords, EltTy.bits .f32 = 32 ∨ (Rect.block (s := S100000x6) S4000x6.size (cc0_transform_6 i) (hinb0_6 i)).WholeWords (EltTy.packing .f32)

variable [Facts₀]

def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf
def dot_S4000x384_S384x3_S4000x3_1_0_0_1_n_n : DotDims S4000x384 S384x3 S4000x3 where
  lhsContracting := [1]
  rhsContracting := [0]
  lhsNonContracting := [0]
  rhsNonContracting := [1]
  lhsBatch := []
  rhsBatch := []
  wf := dot_S4000x384_S384x3_S4000x3_1_0_0_1_n_n_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S384x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4000x6.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x6.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x3200000 : Shape := ⟨2, ![2, 3200000]⟩
abbrev S100000x128 : Shape := ⟨2, ![100000, 128]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x3200000 : Shape := ⟨2, ![1, 3200000]⟩
abbrev S3200000 : Shape := ⟨1, ![3200000]⟩
abbrev S1x128 : Shape := ⟨2, ![1, 128]⟩
abbrev S_ : Shape := ⟨0, ![]⟩
abbrev S100000x1 : Shape := ⟨2, ![100000, 1]⟩
abbrev S1x1 : Shape := ⟨2, ![1, 1]⟩
abbrev S100000x3 : Shape := ⟨2, ![100000, 3]⟩
abbrev S3200000x1 : Shape := ⟨2, ![3200000, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S100000x128, .f32⟩
  | .hbm, ⟨2, _⟩ => ⟨S3200000x3, .f32⟩
  | .hbm, ⟨3, _⟩ => ⟨S3200000x3, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x3200000, .i32⟩
  | .hbm, ⟨17, _⟩ => ⟨S3200000, .i32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x1, .f32⟩
  | .hbm, ⟨26, _⟩ => ⟨S1x1, .f32⟩
  | .hbm, ⟨27, _⟩ => ⟨S100000x1, .f32⟩
  | .hbm, ⟨28, _⟩ => ⟨S100000x1, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x1, .f32⟩
  | .hbm, ⟨37, _⟩ => ⟨S1x1, .f32⟩
  | .hbm, ⟨38, _⟩ => ⟨S100000x1, .f32⟩
  | .hbm, ⟨39, _⟩ => ⟨S100000x1, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x1, .f32⟩
  | .hbm, ⟨48, _⟩ => ⟨S1x1, .f32⟩
  | .hbm, ⟨49, _⟩ => ⟨S100000x1, .f32⟩
  | .hbm, ⟨50, _⟩ => ⟨S100000x1, .f32⟩
  | .hbm, ⟨51, _⟩ => ⟨S_, .f32⟩
  | .hbm, ⟨52, _⟩ => ⟨S100000x3, .f32⟩
  | .hbm, ⟨53, _⟩ => ⟨S3200000x1, .i32⟩
  | .hbm, ⟨54, _⟩ => ⟨S100000x3, .f32⟩
  | .hbm, ⟨55, _⟩ => ⟨S_, .f32⟩
  | .hbm, ⟨56, _⟩ => ⟨S100000x3, .f32⟩
  | .hbm, ⟨57, _⟩ => ⟨S3200000x1, .i32⟩
  | .hbm, ⟨58, _⟩ => ⟨S100000x3, .f32⟩
  | .hbm, ⟨59, _⟩ => ⟨S100000x3, .f32⟩
  | .hbm, ⟨60, _⟩ => ⟨S100000x3, .f32⟩
  | .hbm, ⟨61, _⟩ => ⟨S100000x3, .f32⟩
  | .hbm, ⟨62, _⟩ => ⟨S100000x3, .f32⟩
  | .hbm, ⟨63, _⟩ => ⟨S100000x3, .f32⟩
  | .hbm, ⟨64, _⟩ => ⟨S100000x3, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_cst : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call2_cst : Ref sig .tc := ⟨.hbm, 44, rfl⟩
abbrev main_call2_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  slices_S2x3200000_S1x3200000_1_0 : S2x3200000.Slices ![1, 0] S1x3200000
  shapeCasts_S1x3200000_S3200000 : S1x3200000.ShapeCasts S3200000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x3 : S_.BroadcastsInDim S100000x3 (![] : Fin 0 → Fin S100000x3.rank)
  bcast_S3200000_S3200000x1_0 : S3200000.BroadcastsInDim S3200000x1 (![0] : Fin 1 → Fin S3200000x1.rank)
  bcast_S100000x1_S100000x3_0_1 : S100000x1.BroadcastsInDim S100000x3 (![0, 1] : Fin 2 → Fin S100000x3.rank)
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  scatter_S100000x3_S3200000x1_S3200000x3_1_0_0_1_wf : ScatterDims.WF S100000x3 S3200000x1 S3200000x3 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.KernelAround.lean ====
/-
  The run of `Kernel`'s @main around its one pallas_call, for any float instance: eighteen host operations build the
  fused operands (the three first-layer weight matrices side by side, the three biases end to end, the three
  second-layer columns placed block-diagonally, the edge quantities scattered onto their receiving nodes), the region
  visits the 25 blocks of 4000 nodes in order, and two host slices cut the 100000×6 result into its halves.
  The body loads its six input blocks and the output buffer, and stores ONE value — a pure function of the six input
  blocks — over the whole output buffer. So after the body at a point the output buffer holds that function of the
  point's input blocks, every input buffer still holds its block, and nothing else is touched: this is the proof
  data handed to the pipeline library's frame run, whose post names every array after the run and leaves every
  other unscoped buffer as the two trailing slices leave it. The argument arrays are written by no host
  operation, before the region or after it, so they end as launched.
-/
import proofs.«144292_j28217935135446_2_alg».proof.Proof.Gen.Kernel.Launch
import proofs.«144292_j28217935135446_2_alg».proof.Proof.Gen.Kernel.Skeleton
import proofs.«144292_j28217935135446_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Every TensorCore buffer of core `c` after the eighteen host operations that precede the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host operations before the region, the region, then the two slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two slices touch unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the seven arrays the region stages (each writes its own half of the result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-! ## The argument arrays are written by no host operation -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- A buffer the two slices do not write, and that is none of the region's arrays, ends at its region-entry contents. -/
theorem tail_of_other (dats : (p : Fin _) → (c : Dev nD) → Dat τ (Elt F) Unit ℕ (UR sig nD τ) ℕ (cfgs p) c) (c : Dev nD)
    (b : Ref sig .tc) (hb17 : b ≠ main_v17) (hb18 : b ≠ main_v18) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact ⟨StableHlo.devRef_ne_of_ne hb17, StableHlo.devRef_ne_of_ne hb18⟩)),
    Pipeline.withArrays_of_ne _ c (V0 m c) _ b harr]

/-! ## The windows' blocks -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or kept from before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or kept from before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or kept from before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether fetched there or kept from before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether fetched there or kept from before. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether fetched there or kept from before. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole 4000×6 buffer, as a rectangle. -/
abbrev rOut : Rect S4000x6 := Rect.unit (s := S4000x6) ![0, 0] S4000x6.size inb_S4000x6_S4000x6_0_0
abbrev rX : Rect S4000x128 := Rect.unit (s := S4000x128) ![0, 0] S4000x128.size inb_S4000x128_S4000x128_0_0
abbrev rW1 : Rect S128x384 := Rect.unit (s := S128x384) ![0, 0] S128x384.size inb_S128x384_S128x384_0_0
abbrev rB1 : Rect S1x384 := Rect.unit (s := S1x384) ![0, 0] S1x384.size inb_S1x384_S1x384_0_0
abbrev rW2 : Rect S384x3 := Rect.unit (s := S384x3) ![0, 0] S384x3.size inb_S384x3_S384x3_0_0
abbrev rB2 : Rect S1x3 := Rect.unit (s := S1x3) ![0, 0] S1x3.size inb_S1x3_S1x3_0_0

/-- The output buffer after the body: its one store, of the payload computed from the six loaded input blocks. -/
def outBlock (x0 : Vec F S4000x128 .f32) (x1 : Vec F S128x384 .f32) (x2 : Vec F S1x384 .f32) (x3 : Vec F S384x3 .f32)
    (x4 : Vec F S1x3 .f32) (x5 : Vec F S4000x6 .f32) : Vec F S4000x6 .f32 :=
  View.canon [⟨rOut, k0_pay1 (View.ld x0 rX) (View.ld x1 rW1) (View.ld x2 rB1) (View.ld x3 rW2) (View.ld x4 rB2) (View.ld x5 rOut)⟩]

/-- The one store covers the buffer. -/
theorem outCover (p0 : Vec F S4000x6 .f32) (y : S4000x6.Idx) :
    ∃ pc ∈ ([⟨rOut, p0⟩] : List (View.Piece (Elt F) S4000x6 .f32)), y ∈ pc.1.set :=
  View.cover_of_tiled [⟨rOut, p0⟩] S4000x6.size (by rfl) y

/-! ## The body -/

set_option maxHeartbeats 1000000 in
/-- The body on whole staging buffers — the six inputs' at known contents, the output's at anything — returns with the
    inputs' as they were and the output's at `outBlock` of the inputs'. -/
theorem sound_kernel (c : Dev nD) (E : Set ℕ) (i : grid0.Coords)
    (arg1 : Memref sig .tc .vmem S4000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S384x3 .f32) (harg4 : arg4.IsWhole)
    (arg5 : Memref sig .tc .vmem S1x3 .f32) (harg5 : arg5.IsWhole) (arg6 : Memref sig .tc .vmem S4000x6 .f32) (harg6 : arg6.IsWhole)
    (arg7 : Memref sig .tc .vmem S4000x6 .f32) (harg7 : arg7.IsWhole)
    (x0 : Vec F S4000x128 .f32) (x1 : Vec F S128x384 .f32) (x2 : Vec F S1x384 .f32) (x3 : Vec F S384x3 .f32)
    (x4 : Vec F S1x3 .f32) (x5 : Vec F S4000x6 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E
          (cc0__decoder_kernel i arg1 harg1 arg2 harg2 arg3 harg3 arg4 harg4 arg5 harg5 arg6 harg6 arg7 harg7) K := by
  simp only [cc0__decoder_kernel_eq_skeleton]; unfold cc0__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The pipeline's proof data -/

/-- On core `c`: the arrays as the region finds them; after the body at point `t` each input buffer at its block and
    the output buffer at `outBlock` of the six input blocks; the invariant is the untouched rest; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the input buffers hold their blocks, so `sound_kernel` applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; at the end each of the seven staged arrays holds what
    the pipeline library computes from the proof data, and every other unscoped buffer what the two slices leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The sixteen argument arrays end as launched: the node features are a staged input, which the run returns at its
    entry contents; the fifteen others are staged by no window and written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun _ h c => ⟨
      ((h c).2 main_arg0 (Pipeline.mem_restRefs_of main_arg0 (by decide) (by decide))).trans
        ((tail_of_other m (dats m) c main_arg0 (by decide) (by decide) (by decide)).trans (V_main_arg0 m c)),
      ((h c).1 0).trans ((((dats m) 0 c).arrAt_in 0 rfl _).trans ((A_eq m c 0).trans (V_main_arg1 m c))),
      ((h c).2 main_arg2 (Pipeline.mem_restRefs_of main_arg2 (by decide) (by decide))).trans
        ((tail_of_other m (dats m) c main_arg2 (by decide) (by decide) (by decide)).trans (V_main_arg2 m c)),
      ((h c).2 main_arg3 (Pipeline.mem_restRefs_of main_arg3 (by decide) (by decide))).trans
        ((tail_of_other m (dats m) c main_arg3 (by decide) (by decide) (by decide)).trans (V_main_arg3 m c)),
      ((h c).2 main_arg4 (Pipeline.mem_restRefs_of main_arg4 (by decide) (by decide))).trans
        ((tail_of_other m (dats m) c main_arg4 (by decide) (by decide) (by decide)).trans (V_main_arg4 m c)),
      ((h c).2 main_arg5 (Pipeline.mem_restRefs_of main_arg5 (by decide) (by decide))).trans
        ((tail_of_other m (dats m) c main_arg5 (by decide) (by decide) (by decide)).trans (V_main_arg5 m c)),
      ((h c).2 main_arg6 (Pipeline.mem_restRefs_of main_arg6 (by decide) (by decide))).trans
        ((tail_of_other m (dats m) c main_arg6 (by decide) (by decide) (by decide)).trans (V_main_arg6 m c)),
      ((h c).2 main_arg7 (Pipeline.mem_restRefs_of main_arg7 (by decide) (by decide))).trans
        ((tail_of_other m (dats m) c main_arg7 (by decide) (by decide) (by decide)).trans (V_main_arg7 m c)),
      ((h c).2 main_arg8 (Pipeline.mem_restRefs_of main_arg8 (by decide) (by decide))).trans
        ((tail_of_other m (dats m) c main_arg8 (by decide) (by decide) (by decide)).trans (V_main_arg8 m c)),
      ((h c).2 main_arg9 (Pipeline.mem_restRefs_of main_arg9 (by decide) (by decide))).trans
        ((tail_of_other m (dats m) c main_arg9 (by decide) (by decide) (by decide)).trans (V_main_arg9 m c)),
      ((h c).2 main_arg10 (Pipeline.mem_restRefs_of main_arg10 (by decide) (by decide))).trans
        ((tail_of_other m (dats m) c main_arg10 (by decide) (by decide) (by decide)).trans (V_main_arg10 m c)),
      ((h c).2 main_arg11 (Pipeline.mem_restRefs_of main_arg11 (by decide) (by decide))).trans
        ((tail_of_other m (dats m) c main_arg11 (by decide) (by decide) (by decide)).trans (V_main_arg11 m c)),
      ((h c).2 main_arg12 (Pipeline.mem_restRefs_of main_arg12 (by decide) (by decide))).trans
        ((tail_of_other m (dats m) c main_arg12 (by decide) (by decide) (by decide)).trans (V_main_arg12 m c)),
      ((h c).2 main_arg13 (Pipeline.mem_restRefs_of main_arg13 (by decide) (by decide))).trans
        ((tail_of_other m (dats m) c main_arg13 (by decide) (by decide) (by decide)).trans (V_main_arg13 m c)),
      ((h c).2 main_arg14 (Pipeline.mem_restRefs_of main_arg14 (by decide) (by decide))).trans
        ((tail_of_other m (dats m) c main_arg14 (by decide) (by decide) (by decide)).trans (V_main_arg14 m c)),
      ((h c).2 main_arg15 (Pipeline.mem_restRefs_of main_arg15 (by decide) (by decide))).trans
        ((tail_of_other m (dats m) c main_arg15 (by decide) (by decide) (by decide)).trans (V_main_arg15 m c))⟩)
    (run_main m ρ)

end Cert.Kernel.Around

end
-- ==== Proof.KernelIdealAround.lean ====
/-
  The run of `KernelIdeal`'s @main around its one pallas_call, for any float instance: eighteen host operations build the
  fused operands (the three first-layer weight matrices side by side, the three biases end to end, the three
  second-layer columns placed block-diagonally, the edge quantities scattered onto their receiving nodes), the region
  visits the 25 blocks of 4000 nodes in order, and two host slices cut the 100000×6 result into its halves.
  The body loads its six input blocks and the output buffer, and stores ONE value — a pure function of the six input
  blocks — over the whole output buffer. So after the body at a point the output buffer holds that function of the
  point's input blocks, every input buffer still holds its block, and nothing else is touched: this is the proof
  data handed to the pipeline library's frame run, whose post names every array after the run and leaves every
  other unscoped buffer as the two trailing slices leave it. The argument arrays are written by no host
  operation, before the region or after it, so they end as launched.
-/
import proofs.«144292_j28217935135446_2_alg».proof.Proof.Gen.KernelIdeal.Launch
import proofs.«144292_j28217935135446_2_alg».proof.Proof.Gen.KernelIdeal.Skeleton
import proofs.«144292_j28217935135446_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Every TensorCore buffer of core `c` after the eighteen host operations that precede the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host operations before the region, the region, then the two slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two slices touch unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the seven arrays the region stages (each writes its own half of the result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-! ## The argument arrays are written by no host operation -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- A buffer the two slices do not write, and that is none of the region's arrays, ends at its region-entry contents. -/
theorem tail_of_other (dats : (p : Fin _) → (c : Dev nD) → Dat τ (Elt F) Unit ℕ (UR sig nD τ) ℕ (cfgs p) c) (c : Dev nD)
    (b : Ref sig .tc) (hb17 : b ≠ main_v17) (hb18 : b ≠ main_v18) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact ⟨StableHlo.devRef_ne_of_ne hb17, StableHlo.devRef_ne_of_ne hb18⟩)),
    Pipeline.withArrays_of_ne _ c (V0 m c) _ b harr]

/-! ## The windows' blocks -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or kept from before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or kept from before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or kept from before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether fetched there or kept from before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether fetched there or kept from before. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether fetched there or kept from before. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole 4000×6 buffer, as a rectangle. -/
abbrev rOut : Rect S4000x6 := Rect.unit (s := S4000x6) ![0, 0] S4000x6.size inb_S4000x6_S4000x6_0_0
abbrev rX : Rect S4000x128 := Rect.unit (s := S4000x128) ![0, 0] S4000x128.size inb_S4000x128_S4000x128_0_0
abbrev rW1 : Rect S128x384 := Rect.unit (s := S128x384) ![0, 0] S128x384.size inb_S128x384_S128x384_0_0
abbrev rB1 : Rect S1x384 := Rect.unit (s := S1x384) ![0, 0] S1x384.size inb_S1x384_S1x384_0_0
abbrev rW2 : Rect S384x3 := Rect.unit (s := S384x3) ![0, 0] S384x3.size inb_S384x3_S384x3_0_0
abbrev rB2 : Rect S1x3 := Rect.unit (s := S1x3) ![0, 0] S1x3.size inb_S1x3_S1x3_0_0

/-- The output buffer after the body: its one store, of the payload computed from the six loaded input blocks. -/
def outBlock (x0 : Vec F S4000x128 .f32) (x1 : Vec F S128x384 .f32) (x2 : Vec F S1x384 .f32) (x3 : Vec F S384x3 .f32)
    (x4 : Vec F S1x3 .f32) (x5 : Vec F S4000x6 .f32) : Vec F S4000x6 .f32 :=
  View.canon [⟨rOut, k0_pay1 (View.ld x0 rX) (View.ld x1 rW1) (View.ld x2 rB1) (View.ld x3 rW2) (View.ld x4 rB2) (View.ld x5 rOut)⟩]

/-- The one store covers the buffer. -/
theorem outCover (p0 : Vec F S4000x6 .f32) (y : S4000x6.Idx) :
    ∃ pc ∈ ([⟨rOut, p0⟩] : List (View.Piece (Elt F) S4000x6 .f32)), y ∈ pc.1.set :=
  View.cover_of_tiled [⟨rOut, p0⟩] S4000x6.size (by rfl) y

/-! ## The body -/

set_option maxHeartbeats 1000000 in
/-- The body on whole staging buffers — the six inputs' at known contents, the output's at anything — returns with the
    inputs' as they were and the output's at `outBlock` of the inputs'. -/
theorem sound_kernel (c : Dev nD) (E : Set ℕ) (i : grid0.Coords)
    (arg1 : Memref sig .tc .vmem S4000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S384x3 .f32) (harg4 : arg4.IsWhole)
    (arg5 : Memref sig .tc .vmem S1x3 .f32) (harg5 : arg5.IsWhole) (arg6 : Memref sig .tc .vmem S4000x6 .f32) (harg6 : arg6.IsWhole)
    (arg7 : Memref sig .tc .vmem S4000x6 .f32) (harg7 : arg7.IsWhole)
    (x0 : Vec F S4000x128 .f32) (x1 : Vec F S128x384 .f32) (x2 : Vec F S1x384 .f32) (x3 : Vec F S384x3 .f32)
    (x4 : Vec F S1x3 .f32) (x5 : Vec F S4000x6 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E
          (cc0__decoder_kernel i arg1 harg1 arg2 harg2 arg3 harg3 arg4 harg4 arg5 harg5 arg6 harg6 arg7 harg7) K := by
  simp only [cc0__decoder_kernel_eq_skeleton]; unfold cc0__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The pipeline's proof data -/

/-- On core `c`: the arrays as the region finds them; after the body at point `t` each input buffer at its block and
    the output buffer at `outBlock` of the six input blocks; the invariant is the untouched rest; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the input buffers hold their blocks, so `sound_kernel` applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; at the end each of the seven staged arrays holds what
    the pipeline library computes from the proof data, and every other unscoped buffer what the two slices leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The sixteen argument arrays end as launched: the node features are a staged input, which the run returns at its
    entry contents; the fifteen others are staged by no window and written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun _ h c => ⟨
      ((h c).2 main_arg0 (Pipeline.mem_restRefs_of main_arg0 (by decide) (by decide))).trans
        ((tail_of_other m (dats m) c main_arg0 (by decide) (by decide) (by decide)).trans (V_main_arg0 m c)),
      ((h c).1 0).trans ((((dats m) 0 c).arrAt_in 0 rfl _).trans ((A_eq m c 0).trans (V_main_arg1 m c))),
      ((h c).2 main_arg2 (Pipeline.mem_restRefs_of main_arg2 (by decide) (by decide))).trans
        ((tail_of_other m (dats m) c main_arg2 (by decide) (by decide) (by decide)).trans (V_main_arg2 m c)),
      ((h c).2 main_arg3 (Pipeline.mem_restRefs_of main_arg3 (by decide) (by decide))).trans
        ((tail_of_other m (dats m) c main_arg3 (by decide) (by decide) (by decide)).trans (V_main_arg3 m c)),
      ((h c).2 main_arg4 (Pipeline.mem_restRefs_of main_arg4 (by decide) (by decide))).trans
        ((tail_of_other m (dats m) c main_arg4 (by decide) (by decide) (by decide)).trans (V_main_arg4 m c)),
      ((h c).2 main_arg5 (Pipeline.mem_restRefs_of main_arg5 (by decide) (by decide))).trans
        ((tail_of_other m (dats m) c main_arg5 (by decide) (by decide) (by decide)).trans (V_main_arg5 m c)),
      ((h c).2 main_arg6 (Pipeline.mem_restRefs_of main_arg6 (by decide) (by decide))).trans
        ((tail_of_other m (dats m) c main_arg6 (by decide) (by decide) (by decide)).trans (V_main_arg6 m c)),
      ((h c).2 main_arg7 (Pipeline.mem_restRefs_of main_arg7 (by decide) (by decide))).trans
        ((tail_of_other m (dats m) c main_arg7 (by decide) (by decide) (by decide)).trans (V_main_arg7 m c)),
      ((h c).2 main_arg8 (Pipeline.mem_restRefs_of main_arg8 (by decide) (by decide))).trans
        ((tail_of_other m (dats m) c main_arg8 (by decide) (by decide) (by decide)).trans (V_main_arg8 m c)),
      ((h c).2 main_arg9 (Pipeline.mem_restRefs_of main_arg9 (by decide) (by decide))).trans
        ((tail_of_other m (dats m) c main_arg9 (by decide) (by decide) (by decide)).trans (V_main_arg9 m c)),
      ((h c).2 main_arg10 (Pipeline.mem_restRefs_of main_arg10 (by decide) (by decide))).trans
        ((tail_of_other m (dats m) c main_arg10 (by decide) (by decide) (by decide)).trans (V_main_arg10 m c)),
      ((h c).2 main_arg11 (Pipeline.mem_restRefs_of main_arg11 (by decide) (by decide))).trans
        ((tail_of_other m (dats m) c main_arg11 (by decide) (by decide) (by decide)).trans (V_main_arg11 m c)),
      ((h c).2 main_arg12 (Pipeline.mem_restRefs_of main_arg12 (by decide) (by decide))).trans
        ((tail_of_other m (dats m) c main_arg12 (by decide) (by decide) (by decide)).trans (V_main_arg12 m c)),
      ((h c).2 main_arg13 (Pipeline.mem_restRefs_of main_arg13 (by decide) (by decide))).trans
        ((tail_of_other m (dats m) c main_arg13 (by decide) (by decide) (by decide)).trans (V_main_arg13 m c)),
      ((h c).2 main_arg14 (Pipeline.mem_restRefs_of main_arg14 (by decide) (by decide))).trans
        ((tail_of_other m (dats m) c main_arg14 (by decide) (by decide) (by decide)).trans (V_main_arg14 m c)),
      ((h c).2 main_arg15 (Pipeline.mem_restRefs_of main_arg15 (by decide) (by decide))).trans
        ((tail_of_other m (dats m) c main_arg15 (by decide) (by decide) (by decide)).trans (V_main_arg15 m c))⟩)
    (run_main m ρ)

end Cert.KernelIdeal.Around

end
-- ==== Proof.KernelEntry.lean ====
/-
  What the region finds in its six input arrays: the host operations that precede it, composed.

  The node features are the argument itself. The fused first-layer weights are the three decoders' matrices side by
  side; the fused first bias their three bias vectors end to end, re-cast as a row; the fused second-layer weights
  three columns side by side, each a decoder's column stacked between zero blocks; the fused second bias the three
  scalars end to end, re-cast as a row; the aggregated edge quantities the scatter-add, onto zeros, of the two edge
  quantities laid side by side, along the receiver indices (row 1 of the edge index array, re-cast as a column).
-/
import proofs.«144292_j28217935135446_2_alg».proof.Proof.KernelIdealAround
import Idealize.ShloMosaic.Lib.StableHlo.Run
import Idealize.ShloMosaic.PureOps.Ideal
import Idealize.ShloMosaic.PureOps.Ideal.Laws

set_option maxRecDepth 16384

noncomputable section

namespace Cert.KernelIdeal.Entry

open Cert.KernelIdeal Cert.KernelIdeal.Gen Cert.KernelIdeal.Around
open Idealize.ShloMosaic Idealize.ShloMosaic.TcCoe Idealize.SL.Sem Idealize.ShloMosaic.StableHlo

variable (m : (ℓ : Loc nD τ sig) → Buf (Elt Ideal) ℓ)

/-- The 128 × 1 zero block the host stacks around each decoder's second-layer column. -/
abbrev zeroBlock : S128x1.Idx → EReal := broadcastInDim S128x1 ![] bcast_S_S128x1 (constant (F := Ideal) S_ .f32 0x00000000#32)

/-- The receiver indices as the scatter reads them: row 1 of the edge index array, as a 3200000 × 1 column. -/
abbrev recvIdx (c : Dev nD) : IVec S3200000x1 32 :=
  broadcastInDim S3200000x1 ![0] bcast_S3200000_S3200000x1_0
    (shapeCast S3200000 (extractStridedSlice S1x3200000 ![1, 0] (m ((c : Thread nD τ).loc main_arg0)) slices_S2x3200000_S1x3200000_1_0) shapeCasts_S1x3200000_S3200000)

theorem V_w1 (c : Dev nD) : (V m c main_v6 : S128x384.Idx → EReal)
    = concatenate S128x384 1 [⟨S128x128, m ((c : Thread nD τ).loc main_arg4)⟩, ⟨S128x128, m ((c : Thread nD τ).loc main_arg8)⟩, ⟨S128x128, m ((c : Thread nD τ).loc main_arg12)⟩] concatenates_S128x128_S128x128_S128x128_S128x384_d1 := by
  show StableHlo.after hostOps0 (fun b => m (c, b)) (Proc.devRef .tc main_v6) = _
  after_results
  rfl

theorem V_b1 (c : Dev nD) : (V m c main_v8 : S1x384.Idx → EReal)
    = shapeCast S1x384 (concatenate S384 0 [⟨S128, m ((c : Thread nD τ).loc main_arg5)⟩, ⟨S128, m ((c : Thread nD τ).loc main_arg9)⟩, ⟨S128, m ((c : Thread nD τ).loc main_arg13)⟩] concatenates_S128_S128_S128_S384_d0) shapeCasts_S384_S1x384 := by
  show StableHlo.after hostOps0 (fun b => m (c, b)) (Proc.devRef .tc main_v8) = _
  after_results
  rfl

theorem V_w2 (c : Dev nD) : (V m c main_v13 : S384x3.Idx → EReal)
    = concatenate S384x3 1
        [⟨S384x1, concatenate S384x1 0 [⟨S128x1, m ((c : Thread nD τ).loc main_arg6)⟩, ⟨S128x1, zeroBlock⟩, ⟨S128x1, zeroBlock⟩] concatenates_S128x1_S128x1_S128x1_S384x1_d0⟩,
         ⟨S384x1, concatenate S384x1 0 [⟨S128x1, zeroBlock⟩, ⟨S128x1, m ((c : Thread nD τ).loc main_arg10)⟩, ⟨S128x1, zeroBlock⟩] concatenates_S128x1_S128x1_S128x1_S384x1_d0⟩,
         ⟨S384x1, concatenate S384x1 0 [⟨S128x1, zeroBlock⟩, ⟨S128x1, zeroBlock⟩, ⟨S128x1, m ((c : Thread nD τ).loc main_arg14)⟩] concatenates_S128x1_S128x1_S128x1_S384x1_d0⟩]
        concatenates_S384x1_S384x1_S384x1_S384x3_d1 := by
  show StableHlo.after hostOps0 (fun b => m (c, b)) (Proc.devRef .tc main_v13) = _
  after_results
  rfl

theorem V_b2 (c : Dev nD) : (V m c main_v15 : S1x3.Idx → EReal)
    = shapeCast S1x3 (concatenate S3 0 [⟨S1, m ((c : Thread nD τ).loc main_arg7)⟩, ⟨S1, m ((c : Thread nD τ).loc main_arg11)⟩, ⟨S1, m ((c : Thread nD τ).loc main_arg15)⟩] concatenates_S1_S1_S1_S3_d0) shapeCasts_S3_S1x3 := by
  show StableHlo.after hostOps0 (fun b => m (c, b)) (Proc.devRef .tc main_v15) = _
  after_results
  rfl

theorem V_ft (c : Dev nD) : (V m c main_v5 : S100000x6.Idx → EReal)
    = Host.scatterAdd (F := Ideal) scatter_S100000x6_S3200000x1_S3200000x6_1_0_0_1
        (broadcastInDim S100000x6 ![] bcast_S_S100000x6 (constant (F := Ideal) S_ .f32 0x00000000#32)) (recvIdx m c)
        (concatenate S3200000x6 1 [⟨S3200000x3, m ((c : Thread nD τ).loc main_arg2)⟩, ⟨S3200000x3, m ((c : Thread nD τ).loc main_arg3)⟩] concatenates_S3200000x3_S3200000x3_S3200000x6_d1) := by
  show StableHlo.after hostOps0 (fun b => m (c, b)) (Proc.devRef .tc main_v5) = _
  after_results
  rfl

/-! ## The region's arrays by name -/

theorem V_arr0 (c : Dev nD) : V m c (Pipeline.arrRef spec0 0) = V m c main_arg1 := rfl
theorem V_arr1 (c : Dev nD) : V m c (Pipeline.arrRef spec0 1) = V m c main_v6 := rfl
theorem V_arr2 (c : Dev nD) : V m c (Pipeline.arrRef spec0 2) = V m c main_v8 := rfl
theorem V_arr3 (c : Dev nD) : V m c (Pipeline.arrRef spec0 3) = V m c main_v13 := rfl
theorem V_arr4 (c : Dev nD) : V m c (Pipeline.arrRef spec0 4) = V m c main_v15 := rfl
theorem V_arr5 (c : Dev nD) : V m c (Pipeline.arrRef spec0 5) = V m c main_v5 := rfl

end Cert.KernelIdeal.Entry

end
-- ==== Proof.Spec.lean ====
/-
  The node decoder, stated once on the extended reals, index by index.

  For a node n with features x(n, ·): a two-layer perceptron  relu(x·W1 + b1)·W2 + b2  with 128 hidden units and one
  output; the per-node sum of an edge quantity over the edges whose receiver is n; and the two results
      dv(n, j) = mlp_m(n) · (Σ_{e → n} fij(e, j)) + mlp_e(n),     dw(n, j) = mlp_i(n) · (Σ_{e → n} tij(e, j)).
  The same functions are also stated in the FUSED arrangement: one 384-wide hidden layer whose second-layer weights
  are three columns, column q carrying decoder q's weights on rows 128q … 128q+127 and zero elsewhere. The law that
  joins the two arrangements: a sum over 384 = 3·128 hidden units splits into three sums of 128, and the two blocks
  that meet zero weights vanish because a product with zero is zero on the extended reals (no finiteness needed).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float zero both programs spell as the word 0x00000000. -/
abbrev z : EReal := Ideal.ofBits .f32 0x00000000#32

theorem z_eq : z = 0 := Ideal.ofBits_zero_f32

/-! ## One decoder -/

/-- Hidden unit `k` of a decoder on a row of features: relu of the affine form. -/
def hid (xrow : Fin 128 → EReal) (W1 : (⟨2, ![128, 128]⟩ : Shape).Idx → EReal) (b1 : (⟨1, ![128]⟩ : Shape).Idx → EReal)
    (k : Fin 128) : EReal :=
  max ((∑ i : Fin 128, xrow i * W1 (ix2 i k)) + b1 (ix1 k)) z

/-- The decoder's one output on a row of features. -/
def mlp (xrow : Fin 128 → EReal) (W1 : (⟨2, ![128, 128]⟩ : Shape).Idx → EReal) (b1 : (⟨1, ![128]⟩ : Shape).Idx → EReal)
    (W2 : (⟨2, ![128, 1]⟩ : Shape).Idx → EReal) (b2 : (⟨1, ![1]⟩ : Shape).Idx → EReal) : EReal :=
  (∑ k : Fin 128, hid xrow W1 b1 k * W2 (ix2 k (0 : Fin 1))) + b2 (ix1 (0 : Fin 1))

/-- The sum of column `j` of an edge quantity over the edges whose receiver (read signed) is node `n`, onto zero. -/
def seg {C : Nat} (recv : Fin 3200000 → Int) (u : (⟨2, ![3200000, C]⟩ : Shape).Idx → EReal) (n : Fin 100000) (j : Fin C) : EReal :=
  z + ∑ e : Fin 3200000, if recv e = (n.val : Int) then u (ix2 e j) else 0

/-- The first result: for node `i 0` and column `i 1`, the first decoder's output times the aggregated first edge
    quantity, plus the third decoder's output. -/
def dv (recv : Fin 3200000 → Int) (x : (⟨2, ![100000, 128]⟩ : Shape).Idx → EReal)
    (mW1 : (⟨2, ![128, 128]⟩ : Shape).Idx → EReal) (mb1 : (⟨1, ![128]⟩ : Shape).Idx → EReal)
    (mW2 : (⟨2, ![128, 1]⟩ : Shape).Idx → EReal) (mb2 : (⟨1, ![1]⟩ : Shape).Idx → EReal)
    (eW1 : (⟨2, ![128, 128]⟩ : Shape).Idx → EReal) (eb1 : (⟨1, ![128]⟩ : Shape).Idx → EReal)
    (eW2 : (⟨2, ![128, 1]⟩ : Shape).Idx → EReal) (eb2 : (⟨1, ![1]⟩ : Shape).Idx → EReal)
    (fij : (⟨2, ![3200000, 3]⟩ : Shape).Idx → EReal) : (⟨2, ![100000, 3]⟩ : Shape).Idx → EReal :=
  fun i => mlp (fun k => x (ix2 (i 0) k)) mW1 mb1 mW2 mb2 * seg recv fij (i 0) (i 1)
    + mlp (fun k => x (ix2 (i 0) k)) eW1 eb1 eW2 eb2

/-- The second result: the second decoder's output times the aggregated second edge quantity. -/
def dw (recv : Fin 3200000 → Int) (x : (⟨2, ![100000, 128]⟩ : Shape).Idx → EReal)
    (iW1 : (⟨2, ![128, 128]⟩ : Shape).Idx → EReal) (ib1 : (⟨1, ![128]⟩ : Shape).Idx → EReal)
    (iW2 : (⟨2, ![128, 1]⟩ : Shape).Idx → EReal) (ib2 : (⟨1, ![1]⟩ : Shape).Idx → EReal)
    (tij : (⟨2, ![3200000, 3]⟩ : Shape).Idx → EReal) : (⟨2, ![100000, 3]⟩ : Shape).Idx → EReal :=
  fun i => mlp (fun k => x (ix2 (i 0) k)) iW1 ib1 iW2 ib2 * seg recv tij (i 0) (i 1)

/-! ## The fused arrangement -/

/-- Hidden unit `k` of the 384-wide fused first layer. -/
def hidF (xrow : Fin 128 → EReal) (w1 : (⟨2, ![128, 384]⟩ : Shape).Idx → EReal) (b1 : (⟨2, ![1, 384]⟩ : Shape).Idx → EReal)
    (k : Fin 384) : EReal :=
  max ((∑ i : Fin 128, xrow i * w1 (ix2 i k)) + b1 (ix2 (0 : Fin 1) k)) z

/-- Output `q` of the fused second layer. -/
def outF (xrow : Fin 128 → EReal) (w1 : (⟨2, ![128, 384]⟩ : Shape).Idx → EReal) (b1 : (⟨2, ![1, 384]⟩ : Shape).Idx → EReal)
    (w2 : (⟨2, ![384, 3]⟩ : Shape).Idx → EReal) (b2 : (⟨2, ![1, 3]⟩ : Shape).Idx → EReal) (q : Fin 3) : EReal :=
  (∑ k : Fin 384, hidF xrow w1 b1 k * w2 (ix2 k q)) + b2 (ix2 (0 : Fin 1) q)

/-- Entry `c` of a node's six results in the fused arrangement: the first three are output 0 times the aggregated
    quantity plus output 2, the last three output 1 times the aggregated quantity. -/
def rowF (xrow : Fin 128 → EReal) (w1 : (⟨2, ![128, 384]⟩ : Shape).Idx → EReal) (b1 : (⟨2, ![1, 384]⟩ : Shape).Idx → EReal)
    (w2 : (⟨2, ![384, 3]⟩ : Shape).Idx → EReal) (b2 : (⟨2, ![1, 3]⟩ : Shape).Idx → EReal) (ftrow : Fin 6 → EReal) (c : Fin 6) : EReal :=
  if c.val < 3 then outF xrow w1 b1 w2 b2 0 * ftrow c + outF xrow w1 b1 w2 b2 2
  else outF xrow w1 b1 w2 b2 1 * ftrow c

/-- The whole 100000 × 6 result in the fused arrangement, from the arrays the region is handed. -/
def G (x : (⟨2, ![100000, 128]⟩ : Shape).Idx → EReal) (w1 : (⟨2, ![128, 384]⟩ : Shape).Idx → EReal)
    (b1 : (⟨2, ![1, 384]⟩ : Shape).Idx → EReal) (w2 : (⟨2, ![384, 3]⟩ : Shape).Idx → EReal)
    (b2 : (⟨2, ![1, 3]⟩ : Shape).Idx → EReal) (ft : (⟨2, ![100000, 6]⟩ : Shape).Idx → EReal) :
    (⟨2, ![100000, 6]⟩ : Shape).Idx → EReal :=
  fun i => rowF (fun k => x (ix2 (i 0) k)) w1 b1 w2 b2 (fun c => ft (ix2 (i 0) c)) (i 1)

end Cert.Spec

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.KernelPayload.lean ====
/-
  The body's one stored value, read at an entry, on the extended reals.

  At row r of a 4000-node block the body forms the fused hidden layer relu(x(r,·)·w1 + b1) over 384 units (the change
  of float format before each product is the identity here), the three second-layer outputs y(r, q) = h(r,·)·w2(·,q)
  + b2(q), and stores  y(r,0)·ft(r,c) + y(r,2)  in columns c < 3 and  y(r,1)·ft(r,c)  in columns 3 ≤ c < 6.
  That is the fused arrangement of the specification on row r of the loaded blocks.
-/
import proofs.«144292_j28217935135446_2_alg».proof.Proof.Gen.KernelIdeal.Skeleton
import proofs.«144292_j28217935135446_2_alg».proof.Proof.Spec
import proofs.«144292_j28217935135446_2_alg».proof.Proof.LibDot
import proofs.«144292_j28217935135446_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

variable (x0 : Vec Ideal S4000x128 .f32) (x1 : Vec Ideal S128x384 .f32) (x2 : Vec Ideal S1x384 .f32)
  (x3 : Vec Ideal S384x3 .f32) (x4 : Vec Ideal S1x3 .f32) (x5 : Vec Ideal S4000x6 .f32)

/-- The fused hidden layer after the relu, as the body computes it. -/
def hidden : FVec Ideal S4000x384 .f32 :=
  maximumf (addf (matmul dot_S4000x128_S128x384_S4000x384_1_0_0_1_n_n none (truncf .bf16 x0 bitsLt_bf16_f32)
      (truncf .bf16 (shapeCast S128x384 x1 shapeCasts_S128x384_S128x384) bitsLt_bf16_f32) (constant S4000x384 .f32 0x00000000#32))
    (broadcastTo S4000x384 (shapeCast S1x384 x2 shapeCasts_S1x384_S1x384) broadcasts_S1x384_S4000x384))
    (broadcast S4000x384 (Scalar.ofBits .f32 0x00000000#32))

/-- Hidden unit k of row r is the specification's fused hidden unit on that row. -/
theorem hidden_apply (r : Fin 4000) (k : Fin 384) :
    hidden x0 x1 x2 (ix2 r k) = Cert.Spec.hidF (fun i => x0 (ix2 r i)) x1 x2 k := by
  unfold hidden Cert.Spec.hidF
  rw [maximumf_apply, addf_apply, broadcast_apply, broadcastTo_1b_ab_apply, shapeCast_self, shapeCast_self]
  simp only [matmul]
  rw [Cert.LibDot.matmul_zero_plain_apply _ rfl rfl rfl rfl rfl rfl]
  rfl

/-- The three second-layer outputs plus their biases, as the body computes them. -/
def outputs : FVec Ideal S4000x3 .f32 :=
  addf (matmul dot_S4000x384_S384x3_S4000x3_1_0_0_1_n_n none (truncf .bf16 (hidden x0 x1 x2) bitsLt_bf16_f32)
      (truncf .bf16 (shapeCast S384x3 x3 shapeCasts_S384x3_S384x3) bitsLt_bf16_f32) (constant S4000x3 .f32 0x00000000#32))
    (broadcastTo S4000x3 (shapeCast S1x3 x4 shapeCasts_S1x3_S1x3) broadcasts_S1x3_S4000x3)

/-- Output q of row r is the specification's fused output on that row. -/
theorem outputs_apply (r : Fin 4000) (q : Fin 3) :
    outputs x0 x1 x2 x3 x4 (ix2 r q) = Cert.Spec.outF (fun i => x0 (ix2 r i)) x1 x2 x3 x4 q := by
  unfold outputs Cert.Spec.outF
  rw [addf_apply, broadcastTo_1b_ab_apply, shapeCast_self, shapeCast_self]
  simp only [matmul]
  rw [Cert.LibDot.matmul_zero_plain_apply _ rfl rfl rfl rfl rfl rfl]
  congr 1
  refine Finset.sum_congr rfl fun k _ => ?_
  show hidden x0 x1 x2 (ix2 r k) * x3 (ix2 k q) = _
  rw [hidden_apply]

/-- The payload is the concatenation of the two combined halves. -/
theorem pay_eq : k0_pay1 (F := Ideal) x0 x1 x2 x3 x4 x5
    = concatenate S4000x6 1
        [⟨S4000x3, addf (mulf (broadcastTo S4000x3 (extractStridedSlice S4000x1 ![0, 0] (outputs x0 x1 x2 x3 x4) slices_S4000x3_o0_0_S4000x1) broadcasts_S4000x1_S4000x3)
              (extractStridedSlice S4000x3 ![0, 0] (shapeCast S4000x6 x5 shapeCasts_S4000x6_S4000x6) slices_S4000x6_o0_0_S4000x3))
            (broadcastTo S4000x3 (extractStridedSlice S4000x1 ![0, 2] (outputs x0 x1 x2 x3 x4) slices_S4000x3_o0_2_S4000x1) broadcasts_S4000x1_S4000x3)⟩,
         ⟨S4000x3, mulf (broadcastTo S4000x3 (extractStridedSlice S4000x1 ![0, 1] (outputs x0 x1 x2 x3 x4) slices_S4000x3_o0_1_S4000x1) broadcasts_S4000x1_S4000x3)
            (extractStridedSlice S4000x3 ![0, 3] (shapeCast S4000x6 x5 shapeCasts_S4000x6_S4000x6) slices_S4000x6_o0_3_S4000x3)⟩]
        concatenates_S4000x3_S4000x3_S4000x6_d1 := rfl

/-- THE PAYLOAD AT AN ENTRY: row r, column c of the stored value is the specification's fused row on the loaded blocks. -/
theorem pay_apply (r : Fin 4000) (c : Fin 6) :
    k0_pay1 (F := Ideal) x0 x1 x2 x3 x4 x5 (ix2 r c)
      = Cert.Spec.rowF (fun i => x0 (ix2 r i)) x1 x2 x3 x4 (fun c => x5 (ix2 r c)) c := by
  rw [pay_eq]
  unfold Cert.Spec.rowF
  by_cases hc : c.val < 3
  · rw [if_pos hc]
    rw [concatenate_pair_apply_left (t := S4000x6) (s₁ := S4000x3) (s₂ := S4000x3) (1 : Fin 2) _ _ concatenates_S4000x3_S4000x3_S4000x6_d1 (ix2 r c) rfl (ix2 r (⟨c.val, hc⟩ : Fin 3))
      (fun b => by match b with | ⟨0, _⟩ => rfl | ⟨1, _⟩ => rfl)]
    rw [addf_apply, mulf_apply, Cert.LibColumn.broadcastTo_a1_ab_apply, Cert.LibColumn.broadcastTo_a1_ab_apply,
      slice2_axis1_apply 0 _ _ r (0 : Fin 1) (0 : Fin 3) rfl,
      slice2_axis1_apply 2 _ _ r (0 : Fin 1) (2 : Fin 3) rfl,
      slice2_axis1_apply 0 _ _ r (⟨c.val, hc⟩ : Fin 3) c (by simp),
      shapeCast_self, outputs_apply, outputs_apply]
  · rw [if_neg hc]
    have hc6 : c.val < 6 := c.isLt
    rw [concatenate_pair_apply_right (t := S4000x6) (s₁ := S4000x3) (s₂ := S4000x3) (1 : Fin 2) _ _ concatenates_S4000x3_S4000x3_S4000x6_d1 (ix2 r c) rfl rfl (ix2 r (⟨c.val - 3, by omega⟩ : Fin 3))
      (fun b hb => by match b with | ⟨0, _⟩ => rfl | ⟨1, _⟩ => exact absurd rfl hb)
      (by show (c.val - 3) + 3 = c.val; omega)]
    rw [mulf_apply, Cert.LibColumn.broadcastTo_a1_ab_apply,
      slice2_axis1_apply 1 _ _ r (0 : Fin 1) (1 : Fin 3) rfl,
      slice2_axis1_apply 3 _ _ r (⟨c.val - 3, by omega⟩ : Fin 3) c (by show c.val = 3 + (c.val - 3); omega),
      shapeCast_self, outputs_apply]

end Cert.KernelIdeal.Payload

end
-- ==== Proof.Fusion.lean ====
/-
  The law that joins the fused arrangement to the three separate decoders.

  The 384 fused hidden units are three blocks of 128: unit 128·q + k is unit k of decoder q, because the fused
  first-layer weights and biases are the three decoders' laid side by side. The fused second-layer column q carries
  decoder q's weights on block q and zeros on the two other blocks. So the sum over 384 units splits into three sums
  of 128; in the two foreign blocks every term is a hidden value times zero, which is zero on the extended reals
  whatever the hidden value; what is left is decoder q's own second layer.
-/
import proofs.«144292_j28217935135446_2_alg».proof.Proof.Spec
import Mathlib.Logic.Equiv.Fin.Basic
import Mathlib.Algebra.BigOperators.Fin

noncomputable section

namespace Cert.Spec

open Idealize.ShloMosaic Idealize.ShloMosaic.ValueIdx

/-- Unit `k` of block `q` among the 384 fused hidden units. -/
def blk (q : Fin 3) (k : Fin 128) : Fin 384 := ⟨128 * q.val + k.val, by have := q.isLt; have := k.isLt; omega⟩

@[simp] theorem blk_val (q : Fin 3) (k : Fin 128) : (blk q k).val = 128 * q.val + k.val := rfl

/-- A sum over the 384 units is the sum over the three blocks of the sums over each block's 128 units. -/
theorem sum_blocks (f : Fin 384 → EReal) : ∑ k : Fin 384, f k = ∑ q : Fin 3, ∑ k : Fin 128, f (blk q k) := by
  rw [← Equiv.sum_comp (finProdFinEquiv (m := 3) (n := 128)) f, Fintype.sum_prod_type]
  refine Finset.sum_congr rfl fun q _ => Finset.sum_congr rfl fun k _ => ?_
  congr 1
  apply Fin.ext
  show k.val + 128 * q.val = 128 * q.val + k.val
  omega

/-- Output `q` of the fused arrangement is decoder `q`: given that the fused first layer is the three decoders' side
    by side (`h1`, `h2`), the fused second-layer column `q` is decoder `q`'s on block `q` and zero elsewhere (`h3`), and
    the fused second bias is the three decoders' (`h4`). -/
theorem outF_eq_mlp (xrow : Fin 128 → EReal) (w1 : (⟨2, ![128, 384]⟩ : Shape).Idx → EReal)
    (b1 : (⟨2, ![1, 384]⟩ : Shape).Idx → EReal) (w2 : (⟨2, ![384, 3]⟩ : Shape).Idx → EReal)
    (b2 : (⟨2, ![1, 3]⟩ : Shape).Idx → EReal)
    (W1 : Fin 3 → (⟨2, ![128, 128]⟩ : Shape).Idx → EReal) (B1 : Fin 3 → (⟨1, ![128]⟩ : Shape).Idx → EReal)
    (W2 : Fin 3 → (⟨2, ![128, 1]⟩ : Shape).Idx → EReal) (B2 : Fin 3 → (⟨1, ![1]⟩ : Shape).Idx → EReal)
    (h1 : ∀ (q : Fin 3) (i k : Fin 128), w1 (ix2 i (blk q k)) = W1 q (ix2 i k))
    (h2 : ∀ (q : Fin 3) (k : Fin 128), b1 (ix2 (0 : Fin 1) (blk q k)) = B1 q (ix1 k))
    (h3 : ∀ (q' q : Fin 3) (k : Fin 128), w2 (ix2 (blk q' k) q) = if q' = q then W2 q (ix2 k (0 : Fin 1)) else 0)
    (h4 : ∀ q : Fin 3, b2 (ix2 (0 : Fin 1) q) = B2 q (ix1 (0 : Fin 1))) (q : Fin 3) :
    outF xrow w1 b1 w2 b2 q = mlp xrow (W1 q) (B1 q) (W2 q) (B2 q) := by
  have hh : ∀ (q' : Fin 3) (k : Fin 128), hidF xrow w1 b1 (blk q' k) = hid xrow (W1 q') (B1 q') k := by
    intro q' k
    unfold hidF hid
    simp only [h1, h2]
  unfold outF mlp
  rw [h4, sum_blocks]
  congr 1
  simp only [hh, h3, mul_ite, mul_zero]
  rw [Finset.sum_eq_single q]
  · simp
  · intro q' _ hne
    simp [hne]
  · intro hq
    exact absurd (Finset.mem_univ q) hq

/-! ## The arrangements at a node and a column -/

theorem G_apply (x : (⟨2, ![100000, 128]⟩ : Shape).Idx → EReal) (w1 : (⟨2, ![128, 384]⟩ : Shape).Idx → EReal)
    (b1 : (⟨2, ![1, 384]⟩ : Shape).Idx → EReal) (w2 : (⟨2, ![384, 3]⟩ : Shape).Idx → EReal)
    (b2 : (⟨2, ![1, 3]⟩ : Shape).Idx → EReal) (ft : (⟨2, ![100000, 6]⟩ : Shape).Idx → EReal) (n : Fin 100000) (c : Fin 6) :
    G x w1 b1 w2 b2 ft (ix2 n c) = rowF (fun k => x (ix2 n k)) w1 b1 w2 b2 (fun c => ft (ix2 n c)) c := rfl

/-- Entry (n, c) of the fused arrangement, written out: columns 0–2 are output 0 times the aggregated entry plus output 2,
    columns 3–5 are output 1 times the aggregated entry. -/
theorem G_entry (x : (⟨2, ![100000, 128]⟩ : Shape).Idx → EReal) (w1 : (⟨2, ![128, 384]⟩ : Shape).Idx → EReal)
    (b1 : (⟨2, ![1, 384]⟩ : Shape).Idx → EReal) (w2 : (⟨2, ![384, 3]⟩ : Shape).Idx → EReal)
    (b2 : (⟨2, ![1, 3]⟩ : Shape).Idx → EReal) (ft : (⟨2, ![100000, 6]⟩ : Shape).Idx → EReal) (n : Fin 100000) (c : Fin 6) :
    G x w1 b1 w2 b2 ft (ix2 n c)
      = if c.val < 3 then outF (fun k => x (ix2 n k)) w1 b1 w2 b2 0 * ft (ix2 n c) + outF (fun k => x (ix2 n k)) w1 b1 w2 b2 2
        else outF (fun k => x (ix2 n k)) w1 b1 w2 b2 1 * ft (ix2 n c) := rfl

theorem dv_apply (recv : Fin 3200000 → Int) (x : (⟨2, ![100000, 128]⟩ : Shape).Idx → EReal)
    (mW1 : (⟨2, ![128, 128]⟩ : Shape).Idx → EReal) (mb1 : (⟨1, ![128]⟩ : Shape).Idx → EReal)
    (mW2 : (⟨2, ![128, 1]⟩ : Shape).Idx → EReal) (mb2 : (⟨1, ![1]⟩ : Shape).Idx → EReal)
    (eW1 : (⟨2, ![128, 128]⟩ : Shape).Idx → EReal) (eb1 : (⟨1, ![128]⟩ : Shape).Idx → EReal)
    (eW2 : (⟨2, ![128, 1]⟩ : Shape).Idx → EReal) (eb2 : (⟨1, ![1]⟩ : Shape).Idx → EReal)
    (fij : (⟨2, ![3200000, 3]⟩ : Shape).Idx → EReal) (n : Fin 100000) (j : Fin 3) :
    dv recv x mW1 mb1 mW2 mb2 eW1 eb1 eW2 eb2 fij (ix2 n j)
      = mlp (fun k => x (ix2 n k)) mW1 mb1 mW2 mb2 * seg recv fij n j + mlp (fun k => x (ix2 n k)) eW1 eb1 eW2 eb2 := rfl

theorem dw_apply (recv : Fin 3200000 → Int) (x : (⟨2, ![100000, 128]⟩ : Shape).Idx → EReal)
    (iW1 : (⟨2, ![128, 128]⟩ : Shape).Idx → EReal) (ib1 : (⟨1, ![128]⟩ : Shape).Idx → EReal)
    (iW2 : (⟨2, ![128, 1]⟩ : Shape).Idx → EReal) (ib2 : (⟨1, ![1]⟩ : Shape).Idx → EReal)
    (tij : (⟨2, ![3200000, 3]⟩ : Shape).Idx → EReal) (n : Fin 100000) (j : Fin 3) :
    dw recv x iW1 ib1 iW2 ib2 tij (ix2 n j) = mlp (fun k => x (ix2 n k)) iW1 ib1 iW2 ib2 * seg recv tij n j := rfl

/-- The aggregate depends only on the aggregated column: two edge arrays that agree on one column each, edge by edge,
    have the same aggregate there. (Laid side by side, the two edge quantities are thus aggregated column by column.) -/
theorem seg_congr {C C' : Nat} (recv : Fin 3200000 → Int) (u : (⟨2, ![3200000, C]⟩ : Shape).Idx → EReal)
    (u' : (⟨2, ![3200000, C']⟩ : Shape).Idx → EReal) (n : Fin 100000) (c : Fin C) (c' : Fin C')
    (h : ∀ e : Fin 3200000, u (ix2 e c) = u' (ix2 e c')) : seg recv u n c = seg recv u' n c' := by
  unfold seg
  simp only [h]

end Cert.Spec

end
-- ==== Proof.Operands.lean ====
/-
  The operands the host builds for the region, read at an index.

  Three equal pieces laid end to end along an axis: entry 128·q + k (or q, for unit pieces) along that axis reads piece q
  at k (at 0). From this: the fused first-layer weights (three 128 × 128 matrices side by side), the fused first bias
  (three vectors end to end, re-cast as one row), the fused second-layer weights (three 384 × 1 columns side by side,
  column q being decoder q's 128 × 1 column stacked between zero blocks: block q' of column q is decoder q's column
  when q' = q and zero otherwise), the fused second bias (three scalars end to end, re-cast as one row), and the two
  edge quantities laid side by side (columns 0–2 the first, 3–5 the second). A scalar constant broadcast to any
  shape reads that constant everywhere.
-/
import proofs.«144292_j28217935135446_2_alg».proof.Proof.Fusion
import Idealize.ShloMosaic.Lib.Pipeline.Value
import Idealize.ShloMosaic.Lib.ValueIdx
import Idealize.ShloMosaic.Lib.ValueLayout

noncomputable section

namespace Cert.Operands

open Idealize.ShloMosaic Idealize.ShloMosaic.ValueIdx Cert.Spec

variable {α : Type}

/-- Three pieces of one shape, each of extent `K` along axis `a`, laid end to end: at an index whose axis coordinate is
    `K·q + (i's)`, the concatenation reads piece `q` at `i`. -/
theorem cat3_apply {t s₁ : Shape} (a : Fin t.rank) (x0 x1 x2 : s₁.Idx → α)
    (h : Shape.Concatenates [s₁, s₁, s₁] t a) (hr : s₁.rank = t.rank) (K : Nat) (hK : s₁.size (a.cast hr.symm) = K)
    (j : t.Idx) (q : Fin 3) (i : s₁.Idx) (hq : (j a).val / K = q.val) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) q i :=
  concatenate_ofFn_apply a (![x0, x1, x2] : Fin 3 → s₁.Idx → α) h hr K hK j q hq i hia hi

/-! ## First layer -/

/-- Three 128 × 128 matrices side by side: column 128·q + k is column k of matrix q. -/
theorem w1_apply (A0 A1 A2 : (⟨2, ![128, 128]⟩ : Shape).Idx → α)
    (h : Shape.Concatenates [(⟨2, ![128, 128]⟩ : Shape), (⟨2, ![128, 128]⟩ : Shape), (⟨2, ![128, 128]⟩ : Shape)] (⟨2, ![128, 384]⟩ : Shape) 1)
    (i : Fin 128) (q : Fin 3) (k : Fin 128) :
    concatenate (⟨2, ![128, 384]⟩ : Shape) 1 [⟨(⟨2, ![128, 128]⟩ : Shape), A0⟩, ⟨(⟨2, ![128, 128]⟩ : Shape), A1⟩, ⟨(⟨2, ![128, 128]⟩ : Shape), A2⟩] h (ix2 i (blk q k))
      = (![A0, A1, A2] : Fin 3 → _) q (ix2 i k) :=
  cat3_apply (t := (⟨2, ![128, 384]⟩ : Shape)) (s₁ := (⟨2, ![128, 128]⟩ : Shape)) (1 : Fin 2) A0 A1 A2 h rfl 128 rfl (ix2 i (blk q k)) q (ix2 i k)
    (by show (128 * q.val + k.val) / 128 = q.val; have := k.isLt; omega)
    (by show k.val = (128 * q.val + k.val) % 128; have := k.isLt; omega)
    (fun b hb => by match b with | ⟨0, _⟩ => rfl | ⟨1, _⟩ => exact absurd rfl hb)

/-- Three 128-vectors end to end, re-cast as a 1 × 384 row: entry (0, 128·q + k) is entry k of vector q. -/
theorem b1_apply (B0 B1 B2 : (⟨1, ![128]⟩ : Shape).Idx → α)
    (h : Shape.Concatenates [(⟨1, ![128]⟩ : Shape), (⟨1, ![128]⟩ : Shape), (⟨1, ![128]⟩ : Shape)] (⟨1, ![384]⟩ : Shape) 0)
    (hc : (⟨1, ![384]⟩ : Shape).ShapeCasts (⟨2, ![1, 384]⟩ : Shape)) (q : Fin 3) (k : Fin 128) :
    shapeCast (⟨2, ![1, 384]⟩ : Shape) (concatenate (⟨1, ![384]⟩ : Shape) 0 [⟨(⟨1, ![128]⟩ : Shape), B0⟩, ⟨(⟨1, ![128]⟩ : Shape), B1⟩, ⟨(⟨1, ![128]⟩ : Shape), B2⟩] h) hc (ix2 (0 : Fin 1) (blk q k))
      = (![B0, B1, B2] : Fin 3 → _) q (ix1 k) := by
  rw [shapeCast_a_1a_apply]
  exact cat3_apply (t := (⟨1, ![384]⟩ : Shape)) (s₁ := (⟨1, ![128]⟩ : Shape)) (0 : Fin 1) B0 B1 B2 h rfl 128 rfl (ix1 (blk q k)) q (ix1 k)
    (by show (128 * q.val + k.val) / 128 = q.val; have := k.isLt; omega)
    (by show k.val = (128 * q.val + k.val) % 128; have := k.isLt; omega)
    (fun b hb => by match b with | ⟨0, _⟩ => exact absurd rfl hb)

/-! ## Second layer -/

/-- Three 128 × 1 columns stacked: row 128·q' + k is row k of column q'. -/
theorem stack_apply (P0 P1 P2 : (⟨2, ![128, 1]⟩ : Shape).Idx → α)
    (h : Shape.Concatenates [(⟨2, ![128, 1]⟩ : Shape), (⟨2, ![128, 1]⟩ : Shape), (⟨2, ![128, 1]⟩ : Shape)] (⟨2, ![384, 1]⟩ : Shape) 0)
    (q' : Fin 3) (k : Fin 128) :
    concatenate (⟨2, ![384, 1]⟩ : Shape) 0 [⟨(⟨2, ![128, 1]⟩ : Shape), P0⟩, ⟨(⟨2, ![128, 1]⟩ : Shape), P1⟩, ⟨(⟨2, ![128, 1]⟩ : Shape), P2⟩] h (ix2 (blk q' k) (0 : Fin 1))
      = (![P0, P1, P2] : Fin 3 → _) q' (ix2 k (0 : Fin 1)) :=
  cat3_apply (t := (⟨2, ![384, 1]⟩ : Shape)) (s₁ := (⟨2, ![128, 1]⟩ : Shape)) (0 : Fin 2) P0 P1 P2 h rfl 128 rfl (ix2 (blk q' k) (0 : Fin 1)) q' (ix2 k (0 : Fin 1))
    (by show (128 * q'.val + k.val) / 128 = q'.val; have := k.isLt; omega)
    (by show k.val = (128 * q'.val + k.val) % 128; have := k.isLt; omega)
    (fun b hb => by match b with | ⟨0, _⟩ => exact absurd rfl hb | ⟨1, _⟩ => rfl)

/-- Three 384 × 1 columns side by side: entry (r, q) is entry (r, 0) of column q. -/
theorem cols_apply (C0 C1 C2 : (⟨2, ![384, 1]⟩ : Shape).Idx → α)
    (h : Shape.Concatenates [(⟨2, ![384, 1]⟩ : Shape), (⟨2, ![384, 1]⟩ : Shape), (⟨2, ![384, 1]⟩ : Shape)] (⟨2, ![384, 3]⟩ : Shape) 1)
    (r : Fin 384) (q : Fin 3) :
    concatenate (⟨2, ![384, 3]⟩ : Shape) 1 [⟨(⟨2, ![384, 1]⟩ : Shape), C0⟩, ⟨(⟨2, ![384, 1]⟩ : Shape), C1⟩, ⟨(⟨2, ![384, 1]⟩ : Shape), C2⟩] h (ix2 r q)
      = (![C0, C1, C2] : Fin 3 → _) q (ix2 r (0 : Fin 1)) :=
  cat3_apply (t := (⟨2, ![384, 3]⟩ : Shape)) (s₁ := (⟨2, ![384, 1]⟩ : Shape)) (1 : Fin 2) C0 C1 C2 h rfl 1 rfl (ix2 r q) q (ix2 r (0 : Fin 1))
    (by show q.val / 1 = q.val; omega) (by show 0 = q.val % 1; omega)
    (fun b hb => by match b with | ⟨0, _⟩ => rfl | ⟨1, _⟩ => exact absurd rfl hb)

/-- The block-diagonal second-layer weights: with `Z` a 128 × 1 block that is zero everywhere, block q' of column q is
    decoder q's column when q' = q and zero otherwise. -/
theorem w2_apply (W0 W1 W2 Z : (⟨2, ![128, 1]⟩ : Shape).Idx → EReal) (hZ : ∀ i, Z i = 0)
    (hs : Shape.Concatenates [(⟨2, ![128, 1]⟩ : Shape), (⟨2, ![128, 1]⟩ : Shape), (⟨2, ![128, 1]⟩ : Shape)] (⟨2, ![384, 1]⟩ : Shape) 0)
    (hcs : Shape.Concatenates [(⟨2, ![384, 1]⟩ : Shape), (⟨2, ![384, 1]⟩ : Shape), (⟨2, ![384, 1]⟩ : Shape)] (⟨2, ![384, 3]⟩ : Shape) 1)
    (q' q : Fin 3) (k : Fin 128) :
    concatenate (⟨2, ![384, 3]⟩ : Shape) 1
        [⟨(⟨2, ![384, 1]⟩ : Shape), concatenate (⟨2, ![384, 1]⟩ : Shape) 0 [⟨(⟨2, ![128, 1]⟩ : Shape), W0⟩, ⟨(⟨2, ![128, 1]⟩ : Shape), Z⟩, ⟨(⟨2, ![128, 1]⟩ : Shape), Z⟩] hs⟩,
         ⟨(⟨2, ![384, 1]⟩ : Shape), concatenate (⟨2, ![384, 1]⟩ : Shape) 0 [⟨(⟨2, ![128, 1]⟩ : Shape), Z⟩, ⟨(⟨2, ![128, 1]⟩ : Shape), W1⟩, ⟨(⟨2, ![128, 1]⟩ : Shape), Z⟩] hs⟩,
         ⟨(⟨2, ![384, 1]⟩ : Shape), concatenate (⟨2, ![384, 1]⟩ : Shape) 0 [⟨(⟨2, ![128, 1]⟩ : Shape), Z⟩, ⟨(⟨2, ![128, 1]⟩ : Shape), Z⟩, ⟨(⟨2, ![128, 1]⟩ : Shape), W2⟩] hs⟩] hcs
        (ix2 (blk q' k) q)
      = if q' = q then (![W0, W1, W2] : Fin 3 → _) q (ix2 k (0 : Fin 1)) else 0 := by
  rw [cols_apply]
  fin_cases q <;> fin_cases q' <;>
    simp only [Fin.zero_eta, Fin.mk_one, Fin.reduceFinMk, Matrix.cons_val_zero, Matrix.cons_val_one, Matrix.cons_val_two,
      Matrix.head_cons, Matrix.tail_cons, stack_apply, hZ, Fin.isValue, if_true, if_false, Fin.reduceEq, ↓reduceIte]

/-- Three scalars end to end, re-cast as a 1 × 3 row: entry (0, q) is scalar q. -/
theorem b2_apply (B0 B1 B2 : (⟨1, ![1]⟩ : Shape).Idx → α)
    (h : Shape.Concatenates [(⟨1, ![1]⟩ : Shape), (⟨1, ![1]⟩ : Shape), (⟨1, ![1]⟩ : Shape)] (⟨1, ![3]⟩ : Shape) 0)
    (hc : (⟨1, ![3]⟩ : Shape).ShapeCasts (⟨2, ![1, 3]⟩ : Shape)) (q : Fin 3) :
    shapeCast (⟨2, ![1, 3]⟩ : Shape) (concatenate (⟨1, ![3]⟩ : Shape) 0 [⟨(⟨1, ![1]⟩ : Shape), B0⟩, ⟨(⟨1, ![1]⟩ : Shape), B1⟩, ⟨(⟨1, ![1]⟩ : Shape), B2⟩] h) hc (ix2 (0 : Fin 1) q)
      = (![B0, B1, B2] : Fin 3 → _) q (ix1 (0 : Fin 1)) := by
  rw [shapeCast_a_1a_apply]
  exact cat3_apply (t := (⟨1, ![3]⟩ : Shape)) (s₁ := (⟨1, ![1]⟩ : Shape)) (0 : Fin 1) B0 B1 B2 h rfl 1 rfl (ix1 q) q (ix1 (0 : Fin 1))
    (by show q.val / 1 = q.val; omega) (by show 0 = q.val % 1; omega)
    (fun b hb => by match b with | ⟨0, _⟩ => exact absurd rfl hb)

/-! ## The edge quantities side by side, and a broadcast scalar -/

/-- Columns 0–2 of the side-by-side edge quantities are the first quantity's. -/
theorem edges_left (f t : (⟨2, ![3200000, 3]⟩ : Shape).Idx → α)
    (h : Shape.Concatenates [(⟨2, ![3200000, 3]⟩ : Shape), (⟨2, ![3200000, 3]⟩ : Shape)] (⟨2, ![3200000, 6]⟩ : Shape) 1)
    (e : Fin 3200000) (c : Fin 6) (j : Fin 3) (hj : j.val = c.val) :
    concatenate (⟨2, ![3200000, 6]⟩ : Shape) 1 [⟨(⟨2, ![3200000, 3]⟩ : Shape), f⟩, ⟨(⟨2, ![3200000, 3]⟩ : Shape), t⟩] h (ix2 e c) = f (ix2 e j) :=
  concatenate_pair_apply_left (t := (⟨2, ![3200000, 6]⟩ : Shape)) (s₁ := (⟨2, ![3200000, 3]⟩ : Shape)) (s₂ := (⟨2, ![3200000, 3]⟩ : Shape)) (1 : Fin 2) f t h (ix2 e c) rfl (ix2 e j)
    (fun b => by match b with | ⟨0, _⟩ => rfl | ⟨1, _⟩ => exact hj)

/-- Columns 3–5 are the second quantity's. -/
theorem edges_right (f t : (⟨2, ![3200000, 3]⟩ : Shape).Idx → α)
    (h : Shape.Concatenates [(⟨2, ![3200000, 3]⟩ : Shape), (⟨2, ![3200000, 3]⟩ : Shape)] (⟨2, ![3200000, 6]⟩ : Shape) 1)
    (e : Fin 3200000) (c : Fin 6) (j : Fin 3) (hj : j.val + 3 = c.val) :
    concatenate (⟨2, ![3200000, 6]⟩ : Shape) 1 [⟨(⟨2, ![3200000, 3]⟩ : Shape), f⟩, ⟨(⟨2, ![3200000, 3]⟩ : Shape), t⟩] h (ix2 e c) = t (ix2 e j) :=
  concatenate_pair_apply_right (t := (⟨2, ![3200000, 6]⟩ : Shape)) (s₁ := (⟨2, ![3200000, 3]⟩ : Shape)) (s₂ := (⟨2, ![3200000, 3]⟩ : Shape)) (1 : Fin 2) f t h (ix2 e c) rfl rfl (ix2 e j)
    (fun b hb => by match b with | ⟨0, _⟩ => rfl | ⟨1, _⟩ => exact absurd rfl hb) hj

/-- A scalar broadcast to any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

end Cert.Operands

end
-- ==== Proof.LibScatter.lean ====
/-
  A row scatter-add read at an entry, on the extended reals.

  The lowering of a segment sum: an N × C operand, E update rows of C columns, and one scalar row index per update row
  (an E × 1 index array); update row e is added into operand row idx(e). On the extended reals the result's entry (n, c)
  is the operand's entry plus the sum, over the update rows e whose index (read signed) equals n, of the update's entry
  (e, c): an update lands on (n, c) exactly when its row index is n and its column is c, and an index outside
  [0, N) lands nowhere. It holds for every extent N, E, C.
-/
import Idealize.ShloMosaic.PureOps.Ideal
import Idealize.ShloMosaic.Lib.ValueIdx

noncomputable section

namespace Cert.LibScatter

open Idealize.ShloMosaic Idealize.ShloMosaic.ValueIdx

section Rows

variable {N E C w : Nat}
  (wf : ScatterDims.WF (⟨2, ![N, C]⟩ : Shape) ⟨2, ![E, 1]⟩ ⟨2, ![E, C]⟩ [1] [0] [0] 1)

/-- The row scatter's dimension numbers: window axis 1 of the updates, inserted axis 0 of the operand, the one
    index component goes to operand axis 0, and the index vector lies along axis 1 of the indices. -/
abbrev rowDims : ScatterDims (⟨2, ![N, C]⟩ : Shape) ⟨2, ![E, 1]⟩ ⟨2, ![E, C]⟩ := ⟨[1], [0], [0], 1, wf⟩

/-- On operand axis 0 the window of update entry (e, c') starts at row e's index, read signed: the one index component
    goes to axis 0, and it is read at (e, 0) of the indices. -/
theorem rows_start0 (idx : IVec ⟨2, ![E, 1]⟩ w) (e : Fin E) (c' : Fin C) :
    (rowDims wf).start (ix2 e c') idx 0 = (idx (ix2 e (0 : Fin 1))).toInt := by
  unfold ScatterDims.start
  rw [dif_pos (show (0 : Fin 2) ∈ (rowDims wf).scatterDimsToOperandDims from List.mem_singleton.mpr rfl)]
  have hsi : (rowDims wf).siIdx (ix2 e c') ⟨List.idxOf (0 : Fin 2) (rowDims wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which no index component goes to, every window starts at 0. -/
theorem rows_start1 (idx : IVec ⟨2, ![E, 1]⟩ w) (j : (⟨2, ![E, C]⟩ : Shape).Idx) :
    (rowDims wf).start j idx 1 = 0 := by
  unfold ScatterDims.start
  have h : (1 : Fin 2) ∉ (rowDims wf).scatterDimsToOperandDims :=
    (by decide : (1 : Fin 2) ∉ ([0] : List (Fin 2)))
  rw [dif_neg h]

/-- Operand axis 0 is inserted, so the window coordinate on it is 0. -/
theorem rows_window0 (j : (⟨2, ![E, C]⟩ : Shape).Idx) : (rowDims wf).window j 0 = 0 := by
  unfold ScatterDims.window
  have h : (0 : Fin 2) ∉ (rowDims wf).sKept :=
    (by decide : (0 : Fin 2) ∉ (List.finRange 2).filter (· ∉ ([0] : List (Fin 2))))
  rw [dif_neg h]

/-- Operand axis 1 is the one kept axis; the window coordinate on it is the update entry's column. -/
theorem rows_window1 (e : Fin E) (c' : Fin C) : (rowDims wf).window (ix2 e c') 1 = c'.val := by
  unfold ScatterDims.window
  have h : (1 : Fin 2) ∈ (rowDims wf).sKept :=
    (by decide : (1 : Fin 2) ∈ (List.finRange 2).filter (· ∉ ([0] : List (Fin 2))))
  rw [dif_pos h]
  rfl

/-- An update entry (e, c') lands on the operand entry (n, c) exactly when row e's index, read signed, is n and the
    columns agree: on axis 0 the result coordinate is the index itself (window coordinate 0), on axis 1 it is the
    window coordinate c' (start 0); an index outside [0, N) lands nowhere. -/
theorem rows_resultIdx?_eq_some_iff (idx : IVec ⟨2, ![E, 1]⟩ w) (e : Fin E) (c' : Fin C) (n : Fin N) (c : Fin C) :
    (rowDims wf).resultIdx? (ix2 e c') idx = some (ix2 n c)
      ↔ (idx (ix2 e (0 : Fin 1))).toInt = (n.val : Int) ∧ c' = c := by
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [rows_start0, rows_start1, rows_window0, rows_window1] at h0 h1 hb0
      have h0' : ((idx (ix2 e (0 : Fin 1))).toInt + ((0 : Nat) : Int)).toNat = n.val := h0
      have h1' : ((0 : Int) + (c'.val : Int)).toNat = c.val := h1
      refine ⟨by omega, Fin.ext (by omega)⟩
    · exact absurd h (by simp)
  · rintro ⟨hi, rfl⟩
    have hb : ∀ a, 0 ≤ (rowDims wf).start (ix2 e c') idx a + (rowDims wf).window (ix2 e c') a ∧
        (rowDims wf).start (ix2 e c') idx a + (rowDims wf).window (ix2 e c') a
          < (⟨2, ![N, C]⟩ : Shape).size a := by
      intro a
      match a with
      | ⟨0, _⟩ =>
        show 0 ≤ (rowDims wf).start (ix2 e c') idx 0 + (rowDims wf).window (ix2 e c') 0 ∧
          (rowDims wf).start (ix2 e c') idx 0 + (rowDims wf).window (ix2 e c') 0 < (N : Int)
        rw [rows_start0, rows_window0]
        have := n.isLt
        omega
      | ⟨1, _⟩ =>
        show 0 ≤ (rowDims wf).start (ix2 e c') idx 1 + (rowDims wf).window (ix2 e c') 1 ∧
          (rowDims wf).start (ix2 e c') idx 1 + (rowDims wf).window (ix2 e c') 1 < (C : Int)
        rw [rows_start1, rows_window1]
        have := c'.isLt
        omega
    rw [dif_pos hb]
    congr 1
    funext a
    refine Fin.ext ?_
    match a with
    | ⟨0, _⟩ =>
      show ((rowDims wf).start (ix2 e c') idx 0 + (rowDims wf).window (ix2 e c') 0).toNat = n.val
      rw [rows_start0, rows_window0]
      omega
    | ⟨1, _⟩ =>
      show ((rowDims wf).start (ix2 e c') idx 1 + (rowDims wf).window (ix2 e c') 1).toNat = c'.val
      rw [rows_start1, rows_window1]
      omega

/-- The row scatter-add at the literal dimension numbers, read at entry (n, c). -/
theorem rows_hostScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e (0 : Fin 1))).toInt = (n.val : Int)
  · simp [hA]
  · simp [hA]

end Rows

/-- A row scatter-add (the lowering of a segment sum): operand N×C, one scalar row index per update row (indices E×1),
    updates E×C, window axis 1, inserted axis 0. At the exact instance, entry (n, c) of the result is the operand's
    entry plus the sum, over the update rows e whose index (read signed) is n, of the update's entry (e, c). -/
theorem hostScatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e : Fin E, if (idx (ix2 e (0 : Fin 1))).toInt = (n.val : Int) then upd (ix2 e c) else 0 := by
  obtain ⟨uw, iw, sd, iv, wf⟩ := d
  simp only at hu hi hs hv
  subst hu hi hs hv
  exact rows_hostScatterAdd_apply wf x idx upd n c

/-- The same, for the scatter as a host program states it. -/
theorem scatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd d x idx upd (ix2 n c)
      = x (ix2 n c) + ∑ e : Fin E, if (idx (ix2 e (0 : Fin 1))).toInt = (n.val : Int) then upd (ix2 e c) else 0 :=
  hostScatterAdd_rows_apply d hu hi hs hv x idx upd n c

end Cert.LibScatter

end
-- ==== Proof.KernelBlock.lean ====
/-
  One block of the result: the value the body stores at a point whose two row-blocked inputs are rows
  4000·T … 4000·T + 3999 of the node features and of the aggregated edge quantities is the same rows of the fused
  arrangement of the whole arrays.
-/
import proofs.«144292_j28217935135446_2_alg».proof.Proof.KernelIdealAround
import proofs.«144292_j28217935135446_2_alg».proof.Proof.KernelEntry
import proofs.«144292_j28217935135446_2_alg».proof.Proof.KernelPayload
import proofs.«144292_j28217935135446_2_alg».proof.Proof.Operands
import proofs.«144292_j28217935135446_2_alg».proof.Proof.Fusion
import proofs.«144292_j28217935135446_2_alg».proof.Proof.LibScatter
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Around Cert.KernelIdeal.Entry
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## One block -/

/-- The value stored at a point whose feature block and aggregated block are rows 4000·T … 4000·T + 3999 of the
    arrays `X` and `FT` is that block of the fused arrangement. -/
theorem block_eq (X : S100000x128.Idx → EReal) (w1 : S128x384.Idx → EReal) (b1 : S1x384.Idx → EReal)
    (w2 : S384x3.Idx → EReal) (b2 : S1x3.Idx → EReal) (FT : S100000x6.Idx → EReal)
    (x0 : Vec Ideal S4000x128 .f32) (x5 : Vec Ideal S4000x6 .f32) (T : Nat) (hT : T < 25)
    (h0 : ∀ (r : Fin 4000) (i : Fin 128), x0 (ix2 r i) = X (ix2 (⟨T * 4000 + r.val, by have := r.isLt; omega⟩ : Fin 100000) i))
    (h5 : ∀ (r : Fin 4000) (cc : Fin 6), x5 (ix2 r cc) = FT (ix2 (⟨T * 4000 + r.val, by have := r.isLt; omega⟩ : Fin 100000) cc))
    (r : Fin 4000) (cc : Fin 6) :
    k0_pay1 (F := Ideal) x0 w1 b1 w2 b2 x5 (ix2 r cc)
      = Cert.Spec.G X w1 b1 w2 b2 FT (ix2 (⟨T * 4000 + r.val, by have := r.isLt; omega⟩ : Fin 100000) cc) := by
  rw [Cert.KernelIdeal.Payload.pay_apply]
  rw [Cert.Spec.G_apply]
  simp only [h0, h5]

end Cert.KernelIdeal.Result

end
-- ==== Proof.KernelFlush.lean ====
/-
  What each grid point writes back. Point t's feature block and aggregated block are rows 4000·t … 4000·t + 3999 of
  their arrays (block row t, the one column block), its four weight blocks are the whole weight arrays (block (0, 0) of
  a one-block array), and its output block is rows 4000·t … of the result: so what it writes back is block t of the
  fused arrangement of the arrays the region is handed.
-/
import proofs.«144292_j28217935135446_2_alg».proof.Proof.KernelIdealAround
import proofs.«144292_j28217935135446_2_alg».proof.Proof.KernelEntry
import proofs.«144292_j28217935135446_2_alg».proof.Proof.KernelPayload
import proofs.«144292_j28217935135446_2_alg».proof.Proof.Operands
import proofs.«144292_j28217935135446_2_alg».proof.Proof.Fusion
import proofs.«144292_j28217935135446_2_alg».proof.Proof.LibScatter
import proofs.«144292_j28217935135446_2_alg».proof.Proof.KernelBlock
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Around Cert.KernelIdeal.Entry
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The array after the run -/

/-- The fused arrangement of the six arrays the region is handed. -/
def GK (c : Dev nD) : S100000x6.Idx → EReal :=
  Cert.Spec.G (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

theorem hz : (![0, 0] : Fin 2 → Nat) = fun _ => 0 := funext fun a => by fin_cases a <;> rfl

/-- The printed index maps over the grid: the three row-blocked windows sit at block row t, column block 0; the four
    weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## Block reads, for arbitrary array contents -/

/-- Window 1's one block is its whole array. -/
theorem read_whole1 (A : S128x384.Idx → EReal) (t : Fin cfg0.N) : ((((cfg0.win 1).blk t).view.read (Elt Ideal) A) : S128x384.Idx → EReal) = A := by
  obtain ⟨-, -, e0, e1, -⟩ := idx_facts t
  funext y
  show A (((cfg0.win 1).blk t).view.emb y) = A y
  refine congrArg A (funext fun a => Fin.ext ?_)
  match a with
  | ⟨0, _⟩ => show win0_1.index t (0 : Fin 2) * 128 + 1 * (y 0).val = (y 0).val; omega
  | ⟨1, _⟩ => show win0_1.index t (1 : Fin 2) * 384 + 1 * (y 1).val = (y 1).val; omega

/-- Window 2's one block is its whole array. -/
theorem read_whole2 (A : S1x384.Idx → EReal) (t : Fin cfg0.N) : ((((cfg0.win 2).blk t).view.read (Elt Ideal) A) : S1x384.Idx → EReal) = A := by
  obtain ⟨-, -, -, -, e0, e1, -⟩ := idx_facts t
  funext y
  show A (((cfg0.win 2).blk t).view.emb y) = A y
  refine congrArg A (funext fun a => Fin.ext ?_)
  match a with
  | ⟨0, _⟩ => show win0_2.index t (0 : Fin 2) * 1 + 1 * (y 0).val = (y 0).val; omega
  | ⟨1, _⟩ => show win0_2.index t (1 : Fin 2) * 384 + 1 * (y 1).val = (y 1).val; omega

/-- Window 3's one block is its whole array. -/
theorem read_whole3 (A : S384x3.Idx → EReal) (t : Fin cfg0.N) : ((((cfg0.win 3).blk t).view.read (Elt Ideal) A) : S384x3.Idx → EReal) = A := by
  obtain ⟨-, -, -, -, -, -, e0, e1, -⟩ := idx_facts t
  funext y
  show A (((cfg0.win 3).blk t).view.emb y) = A y
  refine congrArg A (funext fun a => Fin.ext ?_)
  match a with
  | ⟨0, _⟩ => show win0_3.index t (0 : Fin 2) * 384 + 1 * (y 0).val = (y 0).val; omega
  | ⟨1, _⟩ => show win0_3.index t (1 : Fin 2) * 3 + 1 * (y 1).val = (y 1).val; omega

/-- Window 4's one block is its whole array. -/
theorem read_whole4 (A : S1x3.Idx → EReal) (t : Fin cfg0.N) : ((((cfg0.win 4).blk t).view.read (Elt Ideal) A) : S1x3.Idx → EReal) = A := by
  obtain ⟨-, -, -, -, -, -, -, -, e0, e1, -⟩ := idx_facts t
  funext y
  show A (((cfg0.win 4).blk t).view.emb y) = A y
  refine congrArg A (funext fun a => Fin.ext ?_)
  match a with
  | ⟨0, _⟩ => show win0_4.index t (0 : Fin 2) * 1 + 1 * (y 0).val = (y 0).val; omega
  | ⟨1, _⟩ => show win0_4.index t (1 : Fin 2) * 3 + 1 * (y 1).val = (y 1).val; omega

/-- Row r of point t's feature block is row 4000·t + r of the array. -/
theorem read_rows0 (A : S100000x128.Idx → EReal) (t : Fin cfg0.N) (ht : t.val < 25) (r : Fin 4000) (i : Fin 128) :
    (((cfg0.win 0).blk t).view.read (Elt Ideal) A) (ix2 r i) = A (ix2 (⟨t.val * 4000 + r.val, by have := r.isLt; omega⟩ : Fin 100000) i) := by
  obtain ⟨e00, e01, -⟩ := idx_facts t
  show A (((cfg0.win 0).blk t).view.emb (ix2 r i)) = _
  refine congrArg A (funext fun a => Fin.ext ?_)
  match a with
  | ⟨0, _⟩ => show win0_0.index t (0 : Fin 2) * 4000 + 1 * r.val = t.val * 4000 + r.val; omega
  | ⟨1, _⟩ => show win0_0.index t (1 : Fin 2) * 128 + 1 * i.val = i.val; omega

/-- Row r of point t's aggregated block is row 4000·t + r of the array. -/
theorem read_rows5 (A : S100000x6.Idx → EReal) (t : Fin cfg0.N) (ht : t.val < 25) (r : Fin 4000) (cc : Fin 6) :
    (((cfg0.win 5).blk t).view.read (Elt Ideal) A) (ix2 r cc) = A (ix2 (⟨t.val * 4000 + r.val, by have := r.isLt; omega⟩ : Fin 100000) cc) := by
  obtain ⟨-, -, -, -, -, -, -, -, -, -, e50, e51, -⟩ := idx_facts t
  show A (((cfg0.win 5).blk t).view.emb (ix2 r cc)) = _
  refine congrArg A (funext fun a => Fin.ext ?_)
  match a with
  | ⟨0, _⟩ => show win0_5.index t (0 : Fin 2) * 4000 + 1 * r.val = t.val * 4000 + r.val; omega
  | ⟨1, _⟩ => show win0_5.index t (1 : Fin 2) * 6 + 1 * cc.val = cc.val; omega

/-- Entry (r, cc) of the output block of point t sits at (4000·t + r, cc) of the result. -/
theorem emb_out (t : Fin cfg0.N) (ht : t.val < 25) (r : Fin 4000) (cc : Fin 6) :
    ((cfg0.win 6).blk t).view.emb (ix2 r cc)
      = (ix2 (⟨t.val * 4000 + r.val, by have := r.isLt; omega⟩ : Fin 100000) cc : S100000x6.Idx) := by
  obtain ⟨-, -, -, -, -, -, -, -, -, -, -, -, e60, e61⟩ := idx_facts t
  funext a
  apply Fin.ext
  match a with
  | ⟨0, _⟩ => show win0_6.index t (0 : Fin 2) * 4000 + 1 * r.val = t.val * 4000 + r.val; omega
  | ⟨1, _⟩ => show win0_6.index t (1 : Fin 2) * 6 + 1 * cc.val = cc.val; omega

/-- The stored value depends on the four weight blocks only through their contents. -/
theorem pay_congr (x0 : Vec Ideal S4000x128 .f32) (x5 : Vec Ideal S4000x6 .f32)
    (x1 x1' : Vec Ideal S128x384 .f32) (x2 x2' : Vec Ideal S1x384 .f32) (x3 x3' : Vec Ideal S384x3 .f32)
    (x4 x4' : Vec Ideal S1x3 .f32) (h1 : x1 = x1') (h2 : x2 = x2') (h3 : x3 = x3') (h4 : x4 = x4') (j : S4000x6.Idx) :
    k0_pay1 (F := Ideal) x0 x1 x2 x3 x4 x5 j = k0_pay1 (F := Ideal) x0 x1' x2' x3' x4' x5 j := by
  subst h1 h2 h3 h4
  rfl

/-- FOR ANY CONTENTS of the six arrays: entry (r, cc) of what the body stores at point t, computed from the point's six
    blocks, is the fused arrangement of the whole arrays at the entry's place in the result. -/
theorem stored_gen (A0 : S100000x128.Idx → EReal) (A1 : S128x384.Idx → EReal) (A2 : S1x384.Idx → EReal)
    (A3 : S384x3.Idx → EReal) (A4 : S1x3.Idx → EReal) (A5 : S100000x6.Idx → EReal)
    (t : Fin cfg0.N) (r : Fin 4000) (cc : Fin 6) :
    k0_pay1 (F := Ideal) (((cfg0.win 0).blk t).view.read (Elt Ideal) A0) (((cfg0.win 1).blk t).view.read (Elt Ideal) A1) (((cfg0.win 2).blk t).view.read (Elt Ideal) A2)
        (((cfg0.win 3).blk t).view.read (Elt Ideal) A3) (((cfg0.win 4).blk t).view.read (Elt Ideal) A4) (((cfg0.win 5).blk t).view.read (Elt Ideal) A5) (ix2 r cc)
      = Cert.Spec.G A0 A1 A2 A3 A4 A5 (((cfg0.win 6).blk t).view.emb (ix2 r cc)) :=
  have ht : t.val < 25 := lt_of_lt_of_eq t.isLt N_0
  (pay_congr (((cfg0.win 0).blk t).view.read (Elt Ideal) A0) (((cfg0.win 5).blk t).view.read (Elt Ideal) A5) _ A1 _ A2 _ A3 _ A4
      (read_whole1 A1 t) (read_whole2 A2 t) (read_whole3 A3 t) (read_whole4 A4 t) (ix2 r cc)).trans
    ((block_eq A0 A1 A2 A3 A4 A5 (((cfg0.win 0).blk t).view.read (Elt Ideal) A0) (((cfg0.win 5).blk t).view.read (Elt Ideal) A5) t.val ht
        (read_rows0 A0 t ht) (read_rows5 A5 t ht) r cc).trans
      (congrArg (Cert.Spec.G A0 A1 A2 A3 A4 A5) (emb_out t ht r cc).symm))

/-- WHAT POINT t WRITES BACK is block t of the fused arrangement. -/
theorem flushed_eq (c : Dev nD) (t : Fin cfg0.N) :
    (dats m 0 c).flushed 6 t = ((cfg0.win 6).blk t).view.read (Elt Ideal) (GK m c) := by
  show (cfg0.win 6).cut (grid0.coords t) ((dats m 0 c).after 6 t) = _
  rw [after6]
  unfold outBlock
  rw [View.canon_unit_zero hz]
  simp only [View.ld_unit_zero (S := S4000x128) hz, View.ld_unit_zero (S := S128x384) hz, View.ld_unit_zero (S := S1x384) hz,
    View.ld_unit_zero (S := S384x3) hz, View.ld_unit_zero (S := S1x3) hz, View.ld_unit_zero (S := S4000x6) hz]
  funext j
  obtain ⟨r, cc, rfl⟩ : ∃ (r : Fin 4000) (cc : Fin 6), j = ix2 r cc := ⟨j 0, j 1, eq_ix2 j⟩
  show k0_pay1 (F := Ideal) (iblk m c 0 t) (iblk m c 1 t) (iblk m c 2 t) (iblk m c 3 t) (iblk m c 4 t) (iblk m c 5 t) (ix2 r cc)
    = GK m c (((cfg0.win 6).blk t).view.emb (ix2 r cc))
  unfold GK iblk
  exact stored_gen (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t r cc

end Cert.KernelIdeal.Result

end
-- ==== Proof.KernelResult.lean ====
/-
  The result array after the run, and the two slices that follow it. Row n of the 100000 × 6 result lies in the block
  of point n / 4000, so the 25 written-back blocks cover it and it ends holding the fused arrangement; the two
  trailing host slices then read columns 0–2 and 3–5 of it.
-/
import proofs.«144292_j28217935135446_2_alg».proof.Proof.KernelIdealAround
import proofs.«144292_j28217935135446_2_alg».proof.Proof.KernelEntry
import proofs.«144292_j28217935135446_2_alg».proof.Proof.KernelPayload
import proofs.«144292_j28217935135446_2_alg».proof.Proof.Operands
import proofs.«144292_j28217935135446_2_alg».proof.Proof.Fusion
import proofs.«144292_j28217935135446_2_alg».proof.Proof.LibScatter
import proofs.«144292_j28217935135446_2_alg».proof.Proof.KernelFlush
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Around Cert.KernelIdeal.Entry
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- An index of the result is in point t's block iff each coordinate is in the block's range. -/
theorem mem_blk (t : Fin cfg0.N) (i : S100000x6.Idx) :
    i ∈ ((cfg0.win 6).blk t).view.set ↔ ∀ a : Fin 2, win0_6.index t a * S4000x6.size a ≤ (i a).val ∧ (i a).val < win0_6.index t a * S4000x6.size a + S4000x6.size a := by
  show i ∈ ((View.whole main_v16).slice (win0_6.rect t)).set ↔ _
  rw [View.set_slice_whole, Rect.mem_set_unit]
  exact Iff.rfl

/-- Row n of the result lies in the block of point n / 4000. -/
theorem cover (i : S100000x6.Idx) : ∃ t : Fin cfg0.N, (cfg0.win 6).flush t = true ∧ i ∈ ((cfg0.win 6).blk t).view.set := by
  have hi0 : (i 0).val < 100000 := (i 0).isLt
  have hi1 : (i 1).val < 6 := (i 1).isLt
  have hN : cfg0.N = 25 := N_0
  refine ⟨⟨(i 0).val / 4000, by rw [hN]; omega⟩, flush0_6 _, ?_⟩
  rw [mem_blk]
  obtain ⟨-, -, -, -, -, -, -, -, -, -, -, -, e60, e61⟩ := idx_facts ⟨(i 0).val / 4000, by rw [hN]; omega⟩
  intro a
  match a with
  | ⟨0, _⟩ =>
    show win0_6.index _ (0 : Fin 2) * 4000 ≤ (i 0).val ∧ (i 0).val < win0_6.index _ (0 : Fin 2) * 4000 + 4000
    rw [e60]; show (i 0).val / 4000 * 4000 ≤ (i 0).val ∧ (i 0).val < (i 0).val / 4000 * 4000 + 4000; omega
  | ⟨1, _⟩ =>
    show win0_6.index _ (1 : Fin 2) * 6 ≤ (i 1).val ∧ (i 1).val < win0_6.index _ (1 : Fin 2) * 6 + 6
    rw [e61]; omega

/-- THE RESULT ARRAY after the run is the fused arrangement. -/
theorem final (c : Dev nD) : (dats m 0 c).arrAt 6 cfg0.N = GK m c :=
  (dats m 0 c).arrAt_eq_of_cover 6 (GK m c) (fun t _ => flushed_eq m c t) cover

/-! ## The two trailing slices -/

theorem tail17 (c : Dev nD) : (Pipeline.afterTail₀ cfgs (dats m) 0 (V0 m) [hostOps1] c main_v17 : S100000x3.Idx → EReal)
    = extractStridedSlice S100000x3 ![0, 0] (GK m c) slices_S100000x6_S100000x3_0_0 := by
  unfold Pipeline.afterTail₀
  show StableHlo.after hostOps1 _ (Proc.devRef .tc main_v17) = _
  after_results
  exact congrArg (fun x => extractStridedSlice S100000x3 ![0, 0] x slices_S100000x6_S100000x3_0_0)
    ((Pipeline.withArrays_arr spec0 launch0.win.arr_inj c (V0 m c) (fun w => (dats m 0 c).arrAt w cfg0.N) 6).trans (final m c))

theorem tail18 (c : Dev nD) : (Pipeline.afterTail₀ cfgs (dats m) 0 (V0 m) [hostOps1] c main_v18 : S100000x3.Idx → EReal)
    = extractStridedSlice S100000x3 ![0, 3] (GK m c) slices_S100000x6_S100000x3_0_3 := by
  unfold Pipeline.afterTail₀
  show StableHlo.after hostOps1 _ (Proc.devRef .tc main_v18) = _
  after_results
  exact congrArg (fun x => extractStridedSlice S100000x3 ![0, 3] x slices_S100000x6_S100000x3_0_3)
    ((Pipeline.withArrays_arr spec0 launch0.win.arr_inj c (V0 m c) (fun w => (dats m 0 c).arrAt w cfg0.N) 6).trans (final m c))

end Cert.KernelIdeal.Result

end
-- ==== Proof.KernelSpec.lean ====
/-
  The idealized kernel ends at the specification.

  Column j < 3 of the result is fused output 0 times the aggregated first edge quantity plus fused output 2; column 3 + j
  is fused output 1 times the aggregated second edge quantity. Fused output q is decoder q (the joining law, whose
  hypotheses are the fused operands read at an index), and the aggregate of the two quantities laid side by side is,
  column by column, the aggregate of each. So the two slices of the result are dv and dw of the arguments, with the
  receiver of an edge read off row 1 of the edge index array.
-/
import proofs.«144292_j28217935135446_2_alg».proof.Proof.KernelResult

set_option maxRecDepth 16384

noncomputable section

namespace Cert.KernelIdeal.Result

open Cert.KernelIdeal Cert.KernelIdeal.Gen Cert.KernelIdeal.Around Cert.KernelIdeal.Entry
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The receiving node of edge `e`, as the kernel's scatter reads it. -/
def recv (c : Dev nD) : Fin 3200000 → Int := fun e => (recvIdx m c (ix2 e (0 : Fin 1))).toInt

/-- The fused arrangement, with the region's arrays by name. -/
theorem GK_named (c : Dev nD) :
    GK m c = Cert.Spec.G (V m c main_arg1) (V m c main_v6) (V m c main_v8) (V m c main_v13) (V m c main_v15) (V m c main_v5) := by
  unfold GK
  rw [V_arr0, V_arr1, V_arr2, V_arr3, V_arr4, V_arr5]

theorem zeroBlock_apply (i : S128x1.Idx) : zeroBlock i = 0 := by
  show broadcastInDim S128x1 ![] bcast_S_S128x1 (constant (F := Ideal) S_ .f32 0x00000000#32) i = 0
  rw [Cert.Operands.splat_apply, constant_apply, Ideal.ofBits_zero_f32]

/-- Fused output `q` on the arrays the region is handed is decoder `q` on the arguments. -/
theorem outF_decoder (c : Dev nD) (xrow : Fin 128 → EReal) (q : Fin 3) :
    Cert.Spec.outF xrow (V m c main_v6) (V m c main_v8) (V m c main_v13) (V m c main_v15) q
      = Cert.Spec.mlp xrow ((![(m ((c : Thread nD τ).loc main_arg4)), (m ((c : Thread nD τ).loc main_arg8)), (m ((c : Thread nD τ).loc main_arg12))] : Fin 3 → S128x128.Idx → EReal) q)
          ((![(m ((c : Thread nD τ).loc main_arg5)), (m ((c : Thread nD τ).loc main_arg9)), (m ((c : Thread nD τ).loc main_arg13))] : Fin 3 → S128.Idx → EReal) q)
          ((![(m ((c : Thread nD τ).loc main_arg6)), (m ((c : Thread nD τ).loc main_arg10)), (m ((c : Thread nD τ).loc main_arg14))] : Fin 3 → S128x1.Idx → EReal) q)
          ((![(m ((c : Thread nD τ).loc main_arg7)), (m ((c : Thread nD τ).loc main_arg11)), (m ((c : Thread nD τ).loc main_arg15))] : Fin 3 → S1.Idx → EReal) q) := by
  rw [V_w1, V_b1, V_w2, V_b2]
  exact Cert.Spec.outF_eq_mlp xrow _ _ _ _ _ _ _ _
    (fun q i k => Cert.Operands.w1_apply _ _ _ _ i q k)
    (fun q k => Cert.Operands.b1_apply _ _ _ _ _ q k)
    (fun q' q k => Cert.Operands.w2_apply _ _ _ zeroBlock zeroBlock_apply _ _ q' q k)
    (fun q => Cert.Operands.b2_apply _ _ _ _ _ q) q

theorem outF_m (c : Dev nD) (xrow : Fin 128 → EReal) :
    Cert.Spec.outF xrow (V m c main_v6) (V m c main_v8) (V m c main_v13) (V m c main_v15) 0
      = Cert.Spec.mlp xrow (m ((c : Thread nD τ).loc main_arg4)) (m ((c : Thread nD τ).loc main_arg5)) (m ((c : Thread nD τ).loc main_arg6)) (m ((c : Thread nD τ).loc main_arg7)) :=
  outF_decoder m c xrow 0

theorem outF_i (c : Dev nD) (xrow : Fin 128 → EReal) :
    Cert.Spec.outF xrow (V m c main_v6) (V m c main_v8) (V m c main_v13) (V m c main_v15) 1
      = Cert.Spec.mlp xrow (m ((c : Thread nD τ).loc main_arg8)) (m ((c : Thread nD τ).loc main_arg9)) (m ((c : Thread nD τ).loc main_arg10)) (m ((c : Thread nD τ).loc main_arg11)) :=
  outF_decoder m c xrow 1

theorem outF_e (c : Dev nD) (xrow : Fin 128 → EReal) :
    Cert.Spec.outF xrow (V m c main_v6) (V m c main_v8) (V m c main_v13) (V m c main_v15) 2
      = Cert.Spec.mlp xrow (m ((c : Thread nD τ).loc main_arg12)) (m ((c : Thread nD τ).loc main_arg13)) (m ((c : Thread nD τ).loc main_arg14)) (m ((c : Thread nD τ).loc main_arg15)) :=
  outF_decoder m c xrow 2

/-- The aggregated edge quantities at node `n`, column `cc`: the segment sum of the side-by-side quantities. -/
theorem ft_apply (c : Dev nD) (n : Fin 100000) (cc : Fin 6) :
    V m c main_v5 (ix2 n cc)
      = Cert.Spec.seg (recv m c) (concatenate S3200000x6 1 [⟨S3200000x3, (m ((c : Thread nD τ).loc main_arg2))⟩, ⟨S3200000x3, (m ((c : Thread nD τ).loc main_arg3))⟩] concatenates_S3200000x3_S3200000x3_S3200000x6_d1) n cc := by
  rw [V_ft, Cert.LibScatter.scatterAdd_rows_apply _ rfl rfl rfl rfl, Cert.Operands.splat_apply, constant_apply]
  exact congrArg₂ (· + ·) rfl (Finset.sum_congr rfl fun e _ => rfl)

/-- Columns 0–2 of the result are the specification's first result. -/
theorem left_eq (c : Dev nD) :
    extractStridedSlice S100000x3 ![0, 0] (GK m c) slices_S100000x6_S100000x3_0_0
      = Cert.Spec.dv (recv m c) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg2)) := by
  funext i
  obtain ⟨n, j, rfl⟩ : ∃ (n : Fin 100000) (j : Fin 3), i = ix2 n j := ⟨i 0, i 1, eq_ix2 i⟩
  have hj : j.val < 3 := j.isLt
  have hj6 : j.val < 6 := by omega
  rw [slice2_axis1_apply 0 _ _ n j (⟨j.val, hj6⟩ : Fin 6) (by show j.val = 0 + j.val; omega), Cert.Spec.dv_apply,
    GK_named, Cert.Spec.G_entry,
    if_pos (show (⟨j.val, hj6⟩ : Fin 6).val < 3 from hj), outF_m, outF_e, ft_apply,
    Cert.Spec.seg_congr (recv m c) _ (m ((c : Thread nD τ).loc main_arg2)) n (⟨j.val, hj6⟩ : Fin 6) j
      (fun e => Cert.Operands.edges_left _ _ _ e _ j rfl), V_main_arg1]

/-- Columns 3–5 of the result are the specification's second result. -/
theorem right_eq (c : Dev nD) :
    extractStridedSlice S100000x3 ![0, 3] (GK m c) slices_S100000x6_S100000x3_0_3
      = Cert.Spec.dw (recv m c) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg3)) := by
  funext i
  obtain ⟨n, j, rfl⟩ : ∃ (n : Fin 100000) (j : Fin 3), i = ix2 n j := ⟨i 0, i 1, eq_ix2 i⟩
  have hj : j.val < 3 := j.isLt
  have hj6 : 3 + j.val < 6 := by omega
  rw [slice2_axis1_apply 3 _ _ n j (⟨3 + j.val, hj6⟩ : Fin 6) rfl, Cert.Spec.dw_apply,
    GK_named, Cert.Spec.G_entry,
    if_neg (show ¬ (⟨3 + j.val, hj6⟩ : Fin 6).val < 3 from by show ¬ 3 + j.val < 3; omega), outF_i, ft_apply,
    Cert.Spec.seg_congr (recv m c) _ (m ((c : Thread nD τ).loc main_arg3)) n (⟨3 + j.val, hj6⟩ : Fin 6) j
      (fun e => Cert.Operands.edges_right _ _ _ e _ j (by show j.val + 3 = 3 + j.val; omega)), V_main_arg1]

/-- THE RUN, READ: every weakly fair execution of the idealized kernel terminates with its two results at the
    specification's dv and dw of the launch arguments, and the sixteen arguments unchanged. -/
theorem run : θ_run defs (onTc (τ := τ) (main (F := Ideal))) ⟨m, fun _ => 0, ρ⟩ (fun r => ∀ c : Dev nD,
      r.2.mem ((c.tc : Thread nD τ).loc main_v17)
        = Cert.Spec.dv (recv m c) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg2))
      ∧ r.2.mem ((c.tc : Thread nD τ).loc main_v18)
        = Cert.Spec.dw (recv m c) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨
      ((h c).2 main_v17 (Pipeline.mem_restRefs_of main_v17 (by decide) (by decide))).trans ((tail17 m c).trans (left_eq m c)),
      ((h c).2 main_v18 (Pipeline.mem_restRefs_of main_v18 (by decide) (by decide))).trans ((tail18 m c).trans (right_eq m c)),
      ((h c).2 main_arg0 (Pipeline.mem_restRefs_of main_arg0 (by decide) (by decide))).trans
        ((tail_of_other m (dats m) c main_arg0 (by decide) (by decide) (by decide)).trans (V_main_arg0 m c)),
      ((h c).1 0).trans ((((dats m) 0 c).arrAt_in 0 rfl _).trans ((A_eq m c 0).trans (V_main_arg1 m c))),
      ((h c).2 main_arg2 (Pipeline.mem_restRefs_of main_arg2 (by decide) (by decide))).trans
        ((tail_of_other m (dats m) c main_arg2 (by decide) (by decide) (by decide)).trans (V_main_arg2 m c)),
      ((h c).2 main_arg3 (Pipeline.mem_restRefs_of main_arg3 (by decide) (by decide))).trans
        ((tail_of_other m (dats m) c main_arg3 (by decide) (by decide) (by decide)).trans (V_main_arg3 m c)),
      ((h c).2 main_arg4 (Pipeline.mem_restRefs_of main_arg4 (by decide) (by decide))).trans
        ((tail_of_other m (dats m) c main_arg4 (by decide) (by decide) (by decide)).trans (V_main_arg4 m c)),
      ((h c).2 main_arg5 (Pipeline.mem_restRefs_of main_arg5 (by decide) (by decide))).trans
        ((tail_of_other m (dats m) c main_arg5 (by decide) (by decide) (by decide)).trans (V_main_arg5 m c)),
      ((h c).2 main_arg6 (Pipeline.mem_restRefs_of main_arg6 (by decide) (by decide))).trans
        ((tail_of_other m (dats m) c main_arg6 (by decide) (by decide) (by decide)).trans (V_main_arg6 m c)),
      ((h c).2 main_arg7 (Pipeline.mem_restRefs_of main_arg7 (by decide) (by decide))).trans
        ((tail_of_other m (dats m) c main_arg7 (by decide) (by decide) (by decide)).trans (V_main_arg7 m c)),
      ((h c).2 main_arg8 (Pipeline.mem_restRefs_of main_arg8 (by decide) (by decide))).trans
        ((tail_of_other m (dats m) c main_arg8 (by decide) (by decide) (by decide)).trans (V_main_arg8 m c)),
      ((h c).2 main_arg9 (Pipeline.mem_restRefs_of main_arg9 (by decide) (by decide))).trans
        ((tail_of_other m (dats m) c main_arg9 (by decide) (by decide) (by decide)).trans (V_main_arg9 m c)),
      ((h c).2 main_arg10 (Pipeline.mem_restRefs_of main_arg10 (by decide) (by decide))).trans
        ((tail_of_other m (dats m) c main_arg10 (by decide) (by decide) (by decide)).trans (V_main_arg10 m c)),
      ((h c).2 main_arg11 (Pipeline.mem_restRefs_of main_arg11 (by decide) (by decide))).trans
        ((tail_of_other m (dats m) c main_arg11 (by decide) (by decide) (by decide)).trans (V_main_arg11 m c)),
      ((h c).2 main_arg12 (Pipeline.mem_restRefs_of main_arg12 (by decide) (by decide))).trans
        ((tail_of_other m (dats m) c main_arg12 (by decide) (by decide) (by decide)).trans (V_main_arg12 m c)),
      ((h c).2 main_arg13 (Pipeline.mem_restRefs_of main_arg13 (by decide) (by decide))).trans
        ((tail_of_other m (dats m) c main_arg13 (by decide) (by decide) (by decide)).trans (V_main_arg13 m c)),
      ((h c).2 main_arg14 (Pipeline.mem_restRefs_of main_arg14 (by decide) (by decide))).trans
        ((tail_of_other m (dats m) c main_arg14 (by decide) (by decide) (by decide)).trans (V_main_arg14 m c)),
      ((h c).2 main_arg15 (Pipeline.mem_restRefs_of main_arg15 (by decide) (by decide))).trans
        ((tail_of_other m (dats m) c main_arg15 (by decide) (by decide) (by decide)).trans (V_main_arg15 m c))⟩)
    (run_main m ρ)

end Cert.KernelIdeal.Result

end
-- ==== Proof.RefValue.lean ====
/-
  The reference program's two results are the node decoder of the specification, index by index.

  The reference computes three two-layer perceptrons on the node features (contraction with the first weights, the
  first bias broadcast twice, sum, maximum against a broadcast zero, contraction with the 128×1 second weights, the
  second bias broadcast twice, sum), aggregates each of the two edge quantities per receiving node by a row scatter-add
  onto a broadcast zero, and combines them:
      result 1 (n, j) = decoder_m(n) · (0 + Σ_{e → n} fij(e, j)) + decoder_e(n),
      result 2 (n, j) = decoder_i(n) · (0 + Σ_{e → n} tij(e, j)),
  where e → n means that the scatter's index entry (e, 0), read signed, is n. Read at an index, each operation is the
  corresponding operation of the specification on the extended reals, so the two results are the specification's
  dv and dw with that receiver map.
-/
import proofs.«144292_j28217935135446_2_alg».proof.Proof.Gen.ReferenceIdeal.Read
import proofs.«144292_j28217935135446_2_alg».proof.Proof.Spec
import proofs.«144292_j28217935135446_2_alg».proof.Proof.LibScatter

noncomputable section

namespace Cert.ReferenceIdeal.RefValue

open Cert.ReferenceIdeal Cert.ReferenceIdeal.Gen Cert.ReferenceIdeal.Read Idealize.ShloMosaic Idealize.ShloMosaic.ValueIdx

/-- The receiving node of edge `e`, as the reference reads it off the edge index array: the scatter's index entry
    `(e, 0)`, signed. -/
def recv (x0 : (⟨S2x3200000, .i32⟩ : BufTy).Contents (Elt Ideal)) : Fin 3200000 → Int :=
  fun e => (val_main_v30 (F := Ideal) x0 (ix2 e (0 : Fin 1))).toInt

/-! ## One decoder

The reference computes each decoder as: contraction with the first weights, two broadcasts of the first bias, sum,
maximum against a broadcast zero, contraction with the 128×1 second weights, two broadcasts of the second bias, sum.
Read at an index, that is the specification's hidden unit and output, term for term. -/

/-- The hidden layer at node n, unit k: max (Σ_i x(n, i)·W1(i, k) + b1(k)) 0. -/
theorem hidden_apply (x1 : (⟨S100000x128, .f32⟩ : BufTy).Contents (Elt Ideal)) (x4 : (⟨S128x128, .f32⟩ : BufTy).Contents (Elt Ideal)) (x5 : (⟨S128, .f32⟩ : BufTy).Contents (Elt Ideal))
    (n : Fin 100000) (k : Fin 128) :
    val_main_v6 (F := Ideal) x1 x4 x5 (ix2 n k) = Cert.Spec.hid (fun i => x1 (ix2 n i)) x4 x5 k := by
  rw [val_main_v6_apply, val_main_v5_apply, val_main_v2_apply, val_main_v4_apply, val_main_v3_apply,
    val_main_call0_v0_apply, val_main_call0_cst_apply]
  simp only [Ideal.maximumf_def, Ideal.addf_def, Ideal.ofBits_def]
  have el : ∀ t : Fin 128, lidx_main_v2 (ix2 n k) t = ix2 n t := fun t =>
    funext fun a => Fin.ext (by match a with | ⟨0, _⟩ => rfl | ⟨1, _⟩ => rfl)
  have er : ∀ t : Fin 128, ridx_main_v2 (ix2 n k) t = ix2 t k := fun t =>
    funext fun a => Fin.ext (by match a with | ⟨0, _⟩ => rfl | ⟨1, _⟩ => rfl)
  have eb : idx_main_v3 (idx_main_v4 (ix2 n k)) = ix1 k :=
    funext fun a => Fin.ext (by match a with | ⟨0, _⟩ => rfl)
  simp only [el, er, eb]
  rfl

/-- The decoder's output at node n: Σ_k hidden(n, k)·W2(k, 0) + b2(0). -/
theorem decoder_apply (x1 : (⟨S100000x128, .f32⟩ : BufTy).Contents (Elt Ideal)) (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) (n : Fin 100000) :
    val_main_v10 (F := Ideal) x1 x4 x5 x6 x7 (ix2 n (0 : Fin 1))
      = Cert.Spec.mlp (fun i => x1 (ix2 n i)) x4 x5 x6 x7 := by
  rw [val_main_v10_apply, val_main_v7_apply, val_main_v9_apply, val_main_v8_apply]
  simp only [Ideal.addf_def]
  have el : ∀ t : Fin 128, lidx_main_v7 (ix2 n (0 : Fin 1)) t = ix2 n t := fun t =>
    funext fun a => Fin.ext (by match a with | ⟨0, _⟩ => rfl | ⟨1, _⟩ => rfl)
  have er : ∀ t : Fin 128, ridx_main_v7 (ix2 n (0 : Fin 1)) t = ix2 t (0 : Fin 1) := fun t =>
    funext fun a => Fin.ext (by match a with | ⟨0, _⟩ => rfl | ⟨1, _⟩ => rfl)
  have eb : idx_main_v8 (idx_main_v9 (ix2 n (0 : Fin 1))) = ix1 (0 : Fin 1) :=
    funext fun a => Fin.ext (by match a with | ⟨0, _⟩ => rfl)
  simp only [el, er, eb, hidden_apply]
  rfl

/-- The second decoder is the same function of its own weights … -/
theorem decoder_i_eq (x1 : (⟨S100000x128, .f32⟩ : BufTy).Contents (Elt Ideal)) (x8 : (⟨S128x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal)) :
    val_main_v19 (F := Ideal) x1 x8 x9 x10 x11 = val_main_v10 (F := Ideal) x1 x8 x9 x10 x11 := rfl

/-- … and so is the third. -/
theorem decoder_e_eq (x1 : (⟨S100000x128, .f32⟩ : BufTy).Contents (Elt Ideal)) (x12 : (⟨S128x128, .f32⟩ : BufTy).Contents (Elt Ideal)) (x13 : (⟨S128, .f32⟩ : BufTy).Contents (Elt Ideal))
    (x14 : (⟨S128x1, .f32⟩ : BufTy).Contents (Elt Ideal)) (x15 : (⟨S1, .f32⟩ : BufTy).Contents (Elt Ideal)) :
    val_main_v28 (F := Ideal) x1 x12 x13 x14 x15 = val_main_v10 (F := Ideal) x1 x12 x13 x14 x15 := rfl

/-! ## The two aggregations

Each is a row scatter-add onto a broadcast zero: entry (n, j) is zero plus the sum of the edge quantity's entries
(e, j) over the edges e whose receiver is n. -/

/-- A row scatter-add as the host program states it, read at entry (n, c) of the result at the exact instance: the
    operand's entry plus the sum, over the update rows whose index (read signed) is n, of the update's entry in
    column c. It holds for every extent N, E, C. -/
theorem scatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd d x idx upd (ix2 n c)
      = x (ix2 n c) + ∑ e : Fin E, if (idx (ix2 e (0 : Fin 1))).toInt = (n.val : Int) then upd (ix2 e c) else 0 :=
  Cert.LibScatter.hostScatterAdd_rows_apply d hu hi hs hv x idx upd n c

/-- The specification's aggregation, unfolded: zero plus the sum over the edges received by n. -/
theorem seg_def {C : Nat} (r : Fin 3200000 → Int) (u : (⟨2, ![3200000, C]⟩ : Shape).Idx → EReal) (n : Fin 100000)
    (j : Fin C) :
    Cert.Spec.seg r u n j = Cert.Spec.z + ∑ e : Fin 3200000, if r e = (n.val : Int) then u (ix2 e j) else 0 := rfl

/-- The first edge quantity aggregated per node. -/
theorem seg_f_apply (x0 : (⟨S2x3200000, .i32⟩ : BufTy).Contents (Elt Ideal)) (x2 : (⟨S3200000x3, .f32⟩ : BufTy).Contents (Elt Ideal))
    (n : Fin 100000) (j : Fin 3) :
    val_main_v31 (F := Ideal) x0 x2 (ix2 n j) = Cert.Spec.seg (recv x0) x2 n j := by
  unfold val_main_v31
  rewrite [scatterAdd_rows_apply _ rfl rfl rfl rfl, val_main_v29_apply, val_main_cst_apply, Ideal.ofBits_def, seg_def]
  exact congrArg₂ (· + ·) rfl (Finset.sum_congr rfl fun e _ => rfl)

/-- The second edge quantity aggregated per node; its index operand is the same array as the first's. -/
theorem seg_t_apply (x0 : (⟨S2x3200000, .i32⟩ : BufTy).Contents (Elt Ideal)) (x3 : (⟨S3200000x3, .f32⟩ : BufTy).Contents (Elt Ideal))
    (n : Fin 100000) (j : Fin 3) :
    val_main_v34 (F := Ideal) x0 x3 (ix2 n j) = Cert.Spec.seg (recv x0) x3 n j := by
  unfold val_main_v34
  rewrite [scatterAdd_rows_apply _ rfl rfl rfl rfl, val_main_v32_apply, val_main_cst_0_apply, Ideal.ofBits_def, seg_def]
  exact congrArg₂ (· + ·) rfl (Finset.sum_congr rfl fun e _ => rfl)

/-! ## The two results -/

/-- The first result of the specification at entry (n, j). -/
theorem dv_apply (r : Fin 3200000 → Int) (x : (⟨2, ![100000, 128]⟩ : Shape).Idx → EReal)
    (mW1 : (⟨2, ![128, 128]⟩ : Shape).Idx → EReal) (mb1 : (⟨1, ![128]⟩ : Shape).Idx → EReal)
    (mW2 : (⟨2, ![128, 1]⟩ : Shape).Idx → EReal) (mb2 : (⟨1, ![1]⟩ : Shape).Idx → EReal)
    (eW1 : (⟨2, ![128, 128]⟩ : Shape).Idx → EReal) (eb1 : (⟨1, ![128]⟩ : Shape).Idx → EReal)
    (eW2 : (⟨2, ![128, 1]⟩ : Shape).Idx → EReal) (eb2 : (⟨1, ![1]⟩ : Shape).Idx → EReal)
    (fij : (⟨2, ![3200000, 3]⟩ : Shape).Idx → EReal) (n : Fin 100000) (j : Fin 3) :
    Cert.Spec.dv r x mW1 mb1 mW2 mb2 eW1 eb1 eW2 eb2 fij (ix2 n j)
      = Cert.Spec.mlp (fun k => x (ix2 n k)) mW1 mb1 mW2 mb2 * Cert.Spec.seg r fij n j
        + Cert.Spec.mlp (fun k => x (ix2 n k)) eW1 eb1 eW2 eb2 := rfl

/-- The second result of the specification at entry (n, j). -/
theorem dw_apply (r : Fin 3200000 → Int) (x : (⟨2, ![100000, 128]⟩ : Shape).Idx → EReal)
    (iW1 : (⟨2, ![128, 128]⟩ : Shape).Idx → EReal) (ib1 : (⟨1, ![128]⟩ : Shape).Idx → EReal)
    (iW2 : (⟨2, ![128, 1]⟩ : Shape).Idx → EReal) (ib2 : (⟨1, ![1]⟩ : Shape).Idx → EReal)
    (tij : (⟨2, ![3200000, 3]⟩ : Shape).Idx → EReal) (n : Fin 100000) (j : Fin 3) :
    Cert.Spec.dw r x iW1 ib1 iW2 ib2 tij (ix2 n j)
      = Cert.Spec.mlp (fun k => x (ix2 n k)) iW1 ib1 iW2 ib2 * Cert.Spec.seg r tij n j := rfl

/-- The reference's first result is the specification's dv: at (n, j), the first decoder's output at n times the first
    edge quantity aggregated at (n, j), plus the third decoder's output at n. -/
theorem dv_eq (x0 : (⟨S2x3200000, .i32⟩ : BufTy).Contents (Elt Ideal)) (x1 : (⟨S100000x128, .f32⟩ : BufTy).Contents (Elt Ideal)) (x2 : (⟨S3200000x3, .f32⟩ : BufTy).Contents (Elt Ideal)) (x4 : (⟨S128x128, .f32⟩ : BufTy).Contents (Elt Ideal)) (x5 : (⟨S128, .f32⟩ : BufTy).Contents (Elt Ideal)) (x6 : (⟨S128x1, .f32⟩ : BufTy).Contents (Elt Ideal)) (x7 : (⟨S1, .f32⟩ : BufTy).Contents (Elt Ideal)) (x12 : (⟨S128x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) :
    val_main_v38 (F := Ideal) x0 x1 x2 x4 x5 x6 x7 x12 x13 x14 x15
      = Cert.Spec.dv (recv x0) x1 x4 x5 x6 x7 x12 x13 x14 x15 x2 := by
  funext i
  obtain ⟨n, j, rfl⟩ : ∃ (n : Fin 100000) (j : Fin 3), i = ix2 n j := ⟨i 0, i 1, eq_ix2 i⟩
  have e35 : idx_main_v35 (ix2 n j) = ix2 n (0 : Fin 1) :=
    funext fun a => Fin.ext (by match a with | ⟨0, _⟩ => rfl | ⟨1, _⟩ => rfl)
  have e37 : idx_main_v37 (ix2 n j) = ix2 n (0 : Fin 1) :=
    funext fun a => Fin.ext (by match a with | ⟨0, _⟩ => rfl | ⟨1, _⟩ => rfl)
  rw [val_main_v38_apply, val_main_v36_apply, val_main_v35_apply, val_main_v37_apply, e35, e37, decoder_e_eq,
    decoder_apply, decoder_apply, seg_f_apply, Ideal.addf_def, Ideal.mulf_def, dv_apply]

/-- The reference's second result is the specification's dw: at (n, j), the second decoder's output at n times the
    second edge quantity aggregated at (n, j). -/
theorem dw_eq (x0 : (⟨S2x3200000, .i32⟩ : BufTy).Contents (Elt Ideal)) (x1 : (⟨S100000x128, .f32⟩ : BufTy).Contents (Elt Ideal)) (x3 : (⟨S3200000x3, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) :
    val_main_v40 (F := Ideal) x0 x1 x3 x8 x9 x10 x11
      = Cert.Spec.dw (recv x0) x1 x8 x9 x10 x11 x3 := by
  funext i
  obtain ⟨n, j, rfl⟩ : ∃ (n : Fin 100000) (j : Fin 3), i = ix2 n j := ⟨i 0, i 1, eq_ix2 i⟩
  have e39 : idx_main_v39 (ix2 n j) = ix2 n (0 : Fin 1) :=
    funext fun a => Fin.ext (by match a with | ⟨0, _⟩ => rfl | ⟨1, _⟩ => rfl)
  rw [val_main_v40_apply, val_main_v39_apply, e39, decoder_i_eq, decoder_apply, seg_t_apply, Ideal.mulf_def,
    dw_apply]

end Cert.ReferenceIdeal.RefValue

end
-- ==== Proof.lean ====
/-
  The certificate of the fused node decoder against its reference.

  Both programs compute, for every node n and j < 3,
      dv(n, j) = mlp_m(x_n) · Σ_{e → n} fij(e, j) + mlp_e(x_n),      dw(n, j) = mlp_i(x_n) · Σ_{e → n} tij(e, j),
  with mlp(x) = relu(x·W1 + b1)·W2 + b2. The reference evaluates the three decoders and the two segment sums
  separately. The kernel evaluates one 384-wide hidden layer against block-diagonal second-layer weights, one segment
  sum of the two edge quantities laid side by side, in 25 blocks of 4000 nodes, and slices the 100000 × 6 result in two.
  On the extended reals the two agree entry by entry: a sum over 384 hidden units is three sums over 128, the blocks
  that meet the zero weights vanish (a product with zero is zero, whatever the other factor), and a scatter-add is, entry
  by entry, the sum of the update rows whose index is that entry's row, so aggregating side-by-side columns is
  aggregating each. No finiteness of the inputs is used.
  Frames: each kernel program runs its host prefix, the region over its 25 points (the body stores one pure function of
  its six loaded blocks), and its two trailing slices, and writes no argument; the reference is a straight line of
  host operations.
-/
import proofs.«144292_j28217935135446_2_alg».proof.Defs
import proofs.«144292_j28217935135446_2_alg».proof.Proof.Gen.Kernel
import proofs.«144292_j28217935135446_2_alg».proof.Proof.Gen.KernelIdeal
import proofs.«144292_j28217935135446_2_alg».proof.Proof.Gen.ReferenceIdeal
import proofs.«144292_j28217935135446_2_alg».proof.Proof.Gen.Pre_finite_inputs
import proofs.«144292_j28217935135446_2_alg».proof.Proof.Gen.ReferenceIdeal.Run
import proofs.«144292_j28217935135446_2_alg».proof.Proof.Gen.ReferenceIdeal.Read
import proofs.«144292_j28217935135446_2_alg».proof.Proof.KernelAround
import proofs.«144292_j28217935135446_2_alg».proof.Proof.KernelIdealAround
import proofs.«144292_j28217935135446_2_alg».proof.Proof.KernelSpec
import proofs.«144292_j28217935135446_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Around.frame (F := Bits) m ρ

theorem frame_ki : Cert.frame_KernelIdeal := fun m ρ _ => Cert.KernelIdeal.Around.frame (F := Ideal) m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel and the reference read the receiver of an edge off the same entry of the edge index array. -/
theorem recv_eq (m : (ℓ : Loc Cert.KernelIdeal.nD Cert.KernelIdeal.τ Cert.KernelIdeal.sig) → Buf (Elt Ideal) ℓ) (c : Dev Cert.KernelIdeal.nD) :
    Cert.ReferenceIdeal.RefValue.recv (m ((c.tc : Thread Cert.KernelIdeal.nD Cert.KernelIdeal.τ).loc Cert.KernelIdeal.main_arg0))
      = Cert.KernelIdeal.Result.recv m c := rfl

/-- Both idealized programs end at the specification's dv and dw of arguments that agree. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15⟩ := hagree c
    refine (Cert.ReferenceIdeal.Read.val_main_v38_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_
    refine (Cert.ReferenceIdeal.RefValue.dv_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_
    rw [h0, h1, h2, h4, h5, h6, h7, h12, h13, h14, h15, recv_eq]
  · obtain ⟨h0, h1, h2, h3, h4, h5, h6, h7, h8, h9, h10, h11, h12, h13, h14, h15⟩ := hagree c
    refine (Cert.ReferenceIdeal.Read.val_main_v40_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
    refine (Cert.ReferenceIdeal.RefValue.dw_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
    rw [h0, h1, h3, h8, h9, h10, h11, recv_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
